-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S4 : Shape := ⟨1, ![4]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S8192x128 .f32) (main_arg1 : FVec F S8192x8192 .f32) (main_arg2 : FVec F S4 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S4 : Shape := ⟨1, ![4]⟩
abbrev S1 : Shape := ⟨1, ![1]⟩
abbrev S_ : Shape := ⟨0, ![]⟩
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 25
  | .vmem => 21
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S4, .f32⟩
  | .hbm, ⟨3, _⟩ => ⟨S1, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S1, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S1, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S1, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1024x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x1024, .f32⟩
  | .local _ .vmem, ⟨8, _⟩ => ⟨S2048x1024, .f32⟩
  | .local _ .vmem, ⟨9, _⟩ => ⟨S1024x128, .f32⟩
  | .local _ .vmem, ⟨10, _⟩ => ⟨S1024x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x1024, .f32⟩
  | .local _ .vmem, ⟨15, _⟩ => ⟨S2048x1024, .f32⟩
  | .local _ .vmem, ⟨16, _⟩ => ⟨S1024x128, .f32⟩
  | .local _ .vmem, ⟨17, _⟩ => ⟨S1024x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S4_S1_0 : S4.Slices ![0] S1
  shapeCasts_S1_S_ : S1.ShapeCasts S_
  bcast_S_S8192x128 : S_.BroadcastsInDim S8192x128 (![] : Fin 0 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  slices_S4_S1_1 : S4.Slices ![1] S1
  shapeCasts_S1024x128_S1024x128 : S1024x128.ShapeCasts S1024x128
  slices_S4_S1_2 : S4.Slices ![2] S1
  slices_S4_S1_3 : S4.Slices ![3] S1
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S4 : Shape := ⟨1, ![4]⟩
abbrev S1 : Shape := ⟨1, ![1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S4, .f32⟩
  | .hbm, ⟨3, _⟩ => ⟨S1, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S1, .f32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S1, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S1, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]

class Facts₀ : Prop where
  slices_S4_S1_0 : S4.Slices ![0] S1
  shapeCasts_S1_S_ : S1.ShapeCasts S_
  bcast_S_S8192x128 : S_.BroadcastsInDim S8192x128 (![] : Fin 0 → Fin S8192x128.rank)
  slices_S4_S1_1 : S4.Slices ![1] S1
  slices_S4_S1_2 : S4.Slices ![2] S1
  slices_S4_S1_3 : S4.Slices ![3] S1
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Common.lean ====
/-
  Two facts every access of the blocked product's body uses: all its rectangles start at the origin, and a
  buffer read back after a list of stores whose last store fills it holds that store's value.
-/
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offset of every access of the body: the origin. -/
theorem origin2 : (![0, 0] : Fin 2 → ℕ) = fun _ => 0 := by funext a; fin_cases a <;> rfl

/-- Reading a buffer back after a list of stores whose LAST store (the head) fills the whole buffer gives that
    store's value. -/
theorem read_after_whole_store {S : Shape} {e : EltTy} {sig' : RefSig} {κ : Kind} {sp : Space} (v : View sig' κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, by
    subst hz; show y ∈ (Rect.whole S).set; rw [Rect.set_whole]; exact Finset.mem_univ y⟩)).trans
    (View.canon_cons_unit_zero hz inb w L)

end Cert.Kernel.Hand

end
-- ==== Proof.K.Body0.lean ====
/-
  Region 0 of the kernel program as printed: one grid point of the blocked product.
  The grid is 4 row blocks by 8 column blocks; point t is row block t / 8, column block t % 8.
  At a point the body adds (S block) · (Z block) to a 2048 × 128 accumulator kept in scratch,
  after zeroing it when the column block is the first, and copies it to the output block when
  the column block is the last.  This module fixes the names the other modules use.
-/
import proofs.«134114_j48223892800206_1_alg».proof.Proof.Gen.Kernel.Launch
import proofs.«134114_j48223892800206_1_alg».proof.Proof.Gen.Kernel.Skeleton
import proofs.«134114_j48223892800206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«134114_j48223892800206_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windowed arrays -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The S window's staging buffer holds the S block at every point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The Z window's staging buffer holds the Z block at every point. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The two conditions of the body, over the grid -/

/-- The column block is the first one. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)

/-- The column block is the last one. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle, and not written back, away from the last column block; live at it. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: the kernel's scratch buffer, whole. -/
abbrev accM0 : Memref sig .tc .vmem S2048x128 .f32 := Memref.whole cc0_scratch0

/-- The scoped buffers that are neither staging buffers of this call nor its accumulator, at anything. -/
abbrev others0 (c : Dev nD) : sProp 𝕄 :=
  Pipeline.scopedRestBut (Ix := Unit) (Name := ℕ) (U := UR sig nD τ) (Lvl := ℕ) (Val := Elt F) spec0 c [cc0_scratch0]

/-- What the region hands the body before the first point: the accumulator at anything, the other scoped
    buffers, the generator register. -/
theorem PhiA0_eq (c : Dev nD) :
    (Pipeline.ΦA spec0 c : sProp 𝕄)
      = iprop(iprop((∃ d, owns (c : Thread nD τ) accM0 fullShare d) ∗ others0 c) ∗ (∃ r, prngReg c r)) := by
  unfold Pipeline.ΦA
  rw [Pipeline.scopedRest_split_of_list spec0 c [cc0_scratch0] (by decide) (by decide)]
  simp only [accM0, owns_whole, bigSepL]
  rfl

/-! ## One point of the body, case by case -/

set_option maxHeartbeats 1000000 in
/-- FIRST column block (and not the last): the accumulator, whatever it held, ends at the block product added
    to zero; the inputs' buffers and the output's buffer are handed back as found. -/
theorem run0_first (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : first0 i) (h1 : ¬last0 i)
    (x0 : Vec F S2048x1024 .f32) (x1 : Vec F S1024x128 .f32) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, View.ld_unit_zero (S := S2048x1024) origin2, View.ld_unit_zero (S := S1024x128) origin2]
  exact congrArg _ (View.readCov_unit_zero (S := S2048x128) arg5.view origin2 _ _)

set_option maxHeartbeats 1000000 in
/-- A MIDDLE column block: the accumulator at a ends at a plus the block product. -/
theorem run0_mid (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first0 i) (h1 : ¬last0 i)
    (x0 : Vec F S2048x1024 .f32) (x1 : Vec F S1024x128 .f32) (y : Vec F S2048x128 .f32) (a : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

set_option maxHeartbeats 1000000 in
/-- The LAST column block (and not the first): the accumulator at a ends at a plus the block product, and the
    output's buffer, whatever it held, ends at the same. -/
theorem run0_last (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first0 i) (h1 : last0 i)
    (x0 : Vec F S2048x1024 .f32) (x1 : Vec F S1024x128 .f32) (a : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1 ∗ owns (c : Thread nD τ) arg4 fullShare (k0_pay2 x0 x1 a)
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    refine (read_after_whole_store _ _ origin2 _ _ _).trans ?_
    sl_unfold_run_names
    simp only [View.readAt_eq_ld, harg2.read_unread, harg3.read_unread, harg5.read_unread, View.ld_unit_zero (S := S2048x1024) origin2, View.ld_unit_zero (S := S1024x128) origin2, View.ld_unit_zero (S := S2048x128) origin2]
    exact View.readCov_unit_zero (S := S2048x128) arg5.view origin2 _ _
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

/-! ## The accumulator after each point -/

/-- What the accumulator holds after the body at position n: the block product at n added to zero when n's
    column block is the first, else to what position n - 1 left. -/
def acc0 (c : Dev nD) : (n : ℕ) → n < cfg0.N → Vec F S2048x128 .f32
  | 0, hn => k0_pay2 (blk0 V c 0 ⟨0, hn⟩) (blk0 V c 1 ⟨0, hn⟩) (k0_pay1 (F := F))
  | n + 1, hn =>
    if (n + 1) % 8 = 0 then k0_pay2 (blk0 V c 0 ⟨n + 1, hn⟩) (blk0 V c 1 ⟨n + 1, hn⟩) (k0_pay1 (F := F))
    else k0_pay2 (blk0 V c 0 ⟨n + 1, hn⟩) (blk0 V c 1 ⟨n + 1, hn⟩) (acc0 c n (Nat.lt_of_succ_lt hn))

theorem acc0_first (c : Dev nD) (t : Fin cfg0.N) (h : t.val % 8 = 0) :
    acc0 V c t.val t.isLt = k0_pay2 (blk0 V c 0 t) (blk0 V c 1 t) (k0_pay1 (F := F)) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (blk0 V c 0 t) (blk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position n: at the start what the region hands over; afterwards the accumulator at what position
    n - 1 left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) accM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) accM0 fullShare (acc0 V c (n - 1) (by omega)) ∗ others0 c) ∗ (∃ r, prngReg c r)) := by
  cases n with
  | zero => exact absurd rfl hz
  | succ n => rfl

/-! ## The proof data of the region -/

/-- The arrays as the region finds them; after the body each input's buffer at its block and the output's at
    the accumulator (read only where the column block is the last); the invariant above; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the point's column block: first, middle or last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 32 := lt_of_lt_of_eq t.isLt (show cfg0.N = 32 from N_0)
  by_cases h0 : t.val % 8 = 0
  · have h1 : ¬t.val % 8 = 7 := by omega
    have hc0 : first0 (grid0.coords t) := (first0_iff t).mpr h0
    have hc1 : ¬last0 (grid0.coords t) := fun h => h1 ((last0_iff t).mp h)
    rw [Dat.leavesExact_idle (dat0 V c) 2 t (idle0_2 t hc1) (noFlush0_2 t hc1)]
    rw [acc0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_first c (grid0.coords t) _ _ _ _ _ _ _ _ hc0 hc1 (blk0 V c 0 t) (blk0 V c 1 t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_first c (grid0.coords t) _ _ _ _ _ _ _ _ hc0 hc1 (blk0 V c 0 t) (blk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    have hc0 : ¬first0 (grid0.coords t) := fun h => h0 ((first0_iff t).mp h)
    rw [acc0_next V c t h0, PhiS0_castSucc V c t, PhiS0_pos V c _ _ hz]
    by_cases h1 : t.val % 8 = 7
    · have hc1 : last0 (grid0.coords t) := (last0_iff t).mpr h1
      rw [show (dat0 V c).leavesExact 2 t = owns (c : Thread nD τ) (ms0_2 t) fullShare ((dat0 V c).after 2 t) from by
        unfold Dat.leavesExact; rw [live0_2 t hc1], after0_2, acc0_next V c t h0]
      iintro ⟨⟨⟨HS, Hoth⟩, Hg⟩, Ho, ⟨%d0, H0⟩, ⟨%d1, H1⟩, ⟨%d2, H2⟩⟩
      iapply (run0_last c (grid0.coords t) _ _ _ _ _ _ _ _ hc0 hc1 (blk0 V c 0 t) (blk0 V c 1 t) (acc0 V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬last0 (grid0.coords t) := fun h => h1 ((last0_iff t).mp h)
      rw [Dat.leavesExact_idle (dat0 V c) 2 t (idle0_2 t hc1) (noFlush0_2 t hc1)]
      iintro ⟨⟨⟨HS, Hoth⟩, Hg⟩, Ho, ⟨%d0, H0⟩, ⟨%d1, H1⟩, ⟨%d2, H2⟩⟩
      iapply (run0_mid c (grid0.coords t) _ _ _ _ _ _ _ _ hc0 hc1 (blk0 V c 0 t) (blk0 V c 1 t) ((dat0 V c).before 2 t d2) (acc0 V c (t.val - 1) _) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the same back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hoth⟩, Hg⟩
  isplitl [HS Hoth]
  · isplitl [HS]
    · iexists _; iexact HS
    iexact Hoth
  iexact Hg

end Cert.Kernel.Hand

end
-- ==== Proof.K.Body1.lean ====
/-
  Region 1 of the kernel program as printed: one grid point of the blocked product.
  The grid is 4 row blocks by 8 column blocks; point t is row block t / 8, column block t % 8.
  At a point the body adds (S block) · (Z block) to a 2048 × 128 accumulator kept in scratch,
  after zeroing it when the column block is the first, and copies it to the output block when
  the column block is the last.  This module fixes the names the other modules use.
-/
import proofs.«134114_j48223892800206_1_alg».proof.Proof.Gen.Kernel.Launch
import proofs.«134114_j48223892800206_1_alg».proof.Proof.Gen.Kernel.Skeleton
import proofs.«134114_j48223892800206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«134114_j48223892800206_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windowed arrays -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The S window's staging buffer holds the S block at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The Z window's staging buffer holds the Z block at every point. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, over the grid -/

/-- The column block is the first one. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)

/-- The column block is the last one. -/
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle, and not written back, away from the last column block; live at it. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The memrefs the body is called with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: the kernel's scratch buffer, whole. -/
abbrev accM1 : Memref sig .tc .vmem S2048x128 .f32 := Memref.whole cc1_scratch0

/-- The scoped buffers that are neither staging buffers of this call nor its accumulator, at anything. -/
abbrev others1 (c : Dev nD) : sProp 𝕄 :=
  Pipeline.scopedRestBut (Ix := Unit) (Name := ℕ) (U := UR sig nD τ) (Lvl := ℕ) (Val := Elt F) spec1 c [cc1_scratch0]

/-- What the region hands the body before the first point: the accumulator at anything, the other scoped
    buffers, the generator register. -/
theorem PhiA1_eq (c : Dev nD) :
    (Pipeline.ΦA spec1 c : sProp 𝕄)
      = iprop(iprop((∃ d, owns (c : Thread nD τ) accM1 fullShare d) ∗ others1 c) ∗ (∃ r, prngReg c r)) := by
  unfold Pipeline.ΦA
  rw [Pipeline.scopedRest_split_of_list spec1 c [cc1_scratch0] (by decide) (by decide)]
  simp only [accM1, owns_whole, bigSepL]
  rfl

/-! ## One point of the body, case by case -/

set_option maxHeartbeats 1000000 in
/-- FIRST column block (and not the last): the accumulator, whatever it held, ends at the block product added
    to zero; the inputs' buffers and the output's buffer are handed back as found. -/
theorem run1_first (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : first1 i) (h1 : ¬last1 i)
    (x0 : Vec F S2048x1024 .f32) (x1 : Vec F S1024x128 .f32) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 (k1_pay1 (F := F)))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, View.ld_unit_zero (S := S2048x1024) origin2, View.ld_unit_zero (S := S1024x128) origin2]
  exact congrArg _ (View.readCov_unit_zero (S := S2048x128) arg5.view origin2 _ _)

set_option maxHeartbeats 1000000 in
/-- A MIDDLE column block: the accumulator at a ends at a plus the block product. -/
theorem run1_mid (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first1 i) (h1 : ¬last1 i)
    (x0 : Vec F S2048x1024 .f32) (x1 : Vec F S1024x128 .f32) (y : Vec F S2048x128 .f32) (a : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 a)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

set_option maxHeartbeats 1000000 in
/-- The LAST column block (and not the first): the accumulator at a ends at a plus the block product, and the
    output's buffer, whatever it held, ends at the same. -/
theorem run1_last (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first1 i) (h1 : last1 i)
    (x0 : Vec F S2048x1024 .f32) (x1 : Vec F S1024x128 .f32) (a : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1 ∗ owns (c : Thread nD τ) arg4 fullShare (k1_pay2 x0 x1 a)
            ∗ owns (c : Thread nD τ) arg5 fullShare (k1_pay2 x0 x1 a)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    refine (read_after_whole_store _ _ origin2 _ _ _).trans ?_
    sl_unfold_run_names
    simp only [View.readAt_eq_ld, harg2.read_unread, harg3.read_unread, harg5.read_unread, View.ld_unit_zero (S := S2048x1024) origin2, View.ld_unit_zero (S := S1024x128) origin2, View.ld_unit_zero (S := S2048x128) origin2]
    exact View.readCov_unit_zero (S := S2048x128) arg5.view origin2 _ _
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

/-! ## The accumulator after each point -/

/-- What the accumulator holds after the body at position n: the block product at n added to zero when n's
    column block is the first, else to what position n - 1 left. -/
def acc1 (c : Dev nD) : (n : ℕ) → n < cfg1.N → Vec F S2048x128 .f32
  | 0, hn => k1_pay2 (blk1 V c 0 ⟨0, hn⟩) (blk1 V c 1 ⟨0, hn⟩) (k1_pay1 (F := F))
  | n + 1, hn =>
    if (n + 1) % 8 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (acc1 c n (Nat.lt_of_succ_lt hn))

theorem acc1_first (c : Dev nD) (t : Fin cfg1.N) (h : t.val % 8 = 0) :
    acc1 V c t.val t.isLt = k1_pay2 (blk1 V c 0 t) (blk1 V c 1 t) (k1_pay1 (F := F)) := by
  obtain ⟨n, hn⟩ := t
  cases n with
  | zero => rfl
  | succ n => exact if_pos h

theorem acc1_next (c : Dev nD) (t : Fin cfg1.N) (h : ¬t.val % 8 = 0) :
    acc1 V c t.val t.isLt = k1_pay2 (blk1 V c 0 t) (blk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position n: at the start what the region hands over; afterwards the accumulator at what position
    n - 1 left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) accM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) accM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) accM1 fullShare (acc1 V c (n - 1) (by omega)) ∗ others1 c) ∗ (∃ r, prngReg c r)) := by
  cases n with
  | zero => exact absurd rfl hz
  | succ n => rfl

/-! ## The proof data of the region -/

/-- The arrays as the region finds them; after the body each input's buffer at its block and the output's at
    the accumulator (read only where the column block is the last); the invariant above; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the point's column block: first, middle or last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 32 := lt_of_lt_of_eq t.isLt (show cfg1.N = 32 from N_1)
  by_cases h0 : t.val % 8 = 0
  · have h1 : ¬t.val % 8 = 7 := by omega
    have hc0 : first1 (grid1.coords t) := (first1_iff t).mpr h0
    have hc1 : ¬last1 (grid1.coords t) := fun h => h1 ((last1_iff t).mp h)
    rw [Dat.leavesExact_idle (dat1 V c) 2 t (idle1_2 t hc1) (noFlush1_2 t hc1)]
    rw [acc1_first V c t h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩⟩
      iapply (run1_first c (grid1.coords t) _ _ _ _ _ _ _ _ hc0 hc1 (blk1 V c 0 t) (blk1 V c 1 t) ((dat1 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hoth⟩, Hg⟩, Ho, ⟨%d0, H0⟩, ⟨%d1, H1⟩, ⟨%d2, H2⟩⟩
      iapply (run1_first c (grid1.coords t) _ _ _ _ _ _ _ _ hc0 hc1 (blk1 V c 0 t) (blk1 V c 1 t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    have hc0 : ¬first1 (grid1.coords t) := fun h => h0 ((first1_iff t).mp h)
    rw [acc1_next V c t h0, PhiS1_castSucc V c t, PhiS1_pos V c _ _ hz]
    by_cases h1 : t.val % 8 = 7
    · have hc1 : last1 (grid1.coords t) := (last1_iff t).mpr h1
      rw [show (dat1 V c).leavesExact 2 t = owns (c : Thread nD τ) (ms1_2 t) fullShare ((dat1 V c).after 2 t) from by
        unfold Dat.leavesExact; rw [live1_2 t hc1], after1_2, acc1_next V c t h0]
      iintro ⟨⟨⟨HS, Hoth⟩, Hg⟩, Ho, ⟨%d0, H0⟩, ⟨%d1, H1⟩, ⟨%d2, H2⟩⟩
      iapply (run1_last c (grid1.coords t) _ _ _ _ _ _ _ _ hc0 hc1 (blk1 V c 0 t) (blk1 V c 1 t) (acc1 V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬last1 (grid1.coords t) := fun h => h1 ((last1_iff t).mp h)
      rw [Dat.leavesExact_idle (dat1 V c) 2 t (idle1_2 t hc1) (noFlush1_2 t hc1)]
      iintro ⟨⟨⟨HS, Hoth⟩, Hg⟩, Ho, ⟨%d0, H0⟩, ⟨%d1, H1⟩, ⟨%d2, H2⟩⟩
      iapply (run1_mid c (grid1.coords t) _ _ _ _ _ _ _ _ hc0 hc1 (blk1 V c 0 t) (blk1 V c 1 t) ((dat1 V c).before 2 t d2) (acc1 V c (t.val - 1) _) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, Hoth⟩, Hg⟩
  isplitl [HS Hoth]
  · isplitl [HS]
    · iexists _; iexact HS
    iexact Hoth
  iexact Hg

end Cert.Kernel.Hand

end
-- ==== Proof.K.Body2.lean ====
/-
  Region 2 of the kernel program as printed: one grid point of the blocked product.
  The grid is 4 row blocks by 8 column blocks; point t is row block t / 8, column block t % 8.
  At a point the body adds (S block) · (Z block) to a 2048 × 128 accumulator kept in scratch,
  after zeroing it when the column block is the first, and copies it to the output block when
  the column block is the last.  This module fixes the names the other modules use.
-/
import proofs.«134114_j48223892800206_1_alg».proof.Proof.Gen.Kernel.Launch
import proofs.«134114_j48223892800206_1_alg».proof.Proof.Gen.Kernel.Skeleton
import proofs.«134114_j48223892800206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«134114_j48223892800206_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windowed arrays -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The S window's staging buffer holds the S block at every point. -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The Z window's staging buffer holds the Z block at every point. -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The two conditions of the body, over the grid -/

/-- The column block is the first one. -/
abbrev first2 (i : grid2.Coords) : Prop := (Scalar.cmpi .ne (Scalar.extui (Scalar.cmpi .eq (BitVec.ofNat 32 (i 1).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)

/-- The column block is the last one. -/
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)

/-- The input windows are never idle. -/
theorem live2_0 : ∀ t : Fin cfg2.N, cfg2.idle 0 (grid2.coords t) = false := by decide +kernel
theorem live2_1 : ∀ t : Fin cfg2.N, cfg2.idle 1 (grid2.coords t) = false := by decide +kernel
/-- The output window is idle, and not written back, away from the last column block; live at it. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The memrefs the body is called with -/

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: the kernel's scratch buffer, whole. -/
abbrev accM2 : Memref sig .tc .vmem S2048x128 .f32 := Memref.whole cc2_scratch0

/-- The scoped buffers that are neither staging buffers of this call nor its accumulator, at anything. -/
abbrev others2 (c : Dev nD) : sProp 𝕄 :=
  Pipeline.scopedRestBut (Ix := Unit) (Name := ℕ) (U := UR sig nD τ) (Lvl := ℕ) (Val := Elt F) spec2 c [cc2_scratch0]

/-- What the region hands the body before the first point: the accumulator at anything, the other scoped
    buffers, the generator register. -/
theorem PhiA2_eq (c : Dev nD) :
    (Pipeline.ΦA spec2 c : sProp 𝕄)
      = iprop(iprop((∃ d, owns (c : Thread nD τ) accM2 fullShare d) ∗ others2 c) ∗ (∃ r, prngReg c r)) := by
  unfold Pipeline.ΦA
  rw [Pipeline.scopedRest_split_of_list spec2 c [cc2_scratch0] (by decide) (by decide)]
  simp only [accM2, owns_whole, bigSepL]
  rfl

/-! ## One point of the body, case by case -/

set_option maxHeartbeats 1000000 in
/-- FIRST column block (and not the last): the accumulator, whatever it held, ends at the block product added
    to zero; the inputs' buffers and the output's buffer are handed back as found. -/
theorem run2_first (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : first2 i) (h1 : ¬last2 i)
    (x0 : Vec F S2048x1024 .f32) (x1 : Vec F S1024x128 .f32) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k2_pay2 x0 x1 (k2_pay1 (F := F)))) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, View.ld_unit_zero (S := S2048x1024) origin2, View.ld_unit_zero (S := S1024x128) origin2]
  exact congrArg _ (View.readCov_unit_zero (S := S2048x128) arg5.view origin2 _ _)

set_option maxHeartbeats 1000000 in
/-- A MIDDLE column block: the accumulator at a ends at a plus the block product. -/
theorem run2_mid (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first2 i) (h1 : ¬last2 i)
    (x0 : Vec F S2048x1024 .f32) (x1 : Vec F S1024x128 .f32) (y : Vec F S2048x128 .f32) (a : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k2_pay2 x0 x1 a)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

set_option maxHeartbeats 1000000 in
/-- The LAST column block (and not the first): the accumulator at a ends at a plus the block product, and the
    output's buffer, whatever it held, ends at the same. -/
theorem run2_last (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first2 i) (h1 : last2 i)
    (x0 : Vec F S2048x1024 .f32) (x1 : Vec F S1024x128 .f32) (a : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1 ∗ owns (c : Thread nD τ) arg4 fullShare (k2_pay2 x0 x1 a)
            ∗ owns (c : Thread nD τ) arg5 fullShare (k2_pay2 x0 x1 a)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    refine (read_after_whole_store _ _ origin2 _ _ _).trans ?_
    sl_unfold_run_names
    simp only [View.readAt_eq_ld, harg2.read_unread, harg3.read_unread, harg5.read_unread, View.ld_unit_zero (S := S2048x1024) origin2, View.ld_unit_zero (S := S1024x128) origin2, View.ld_unit_zero (S := S2048x128) origin2]
    exact View.readCov_unit_zero (S := S2048x128) arg5.view origin2 _ _
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

/-! ## The accumulator after each point -/

/-- What the accumulator holds after the body at position n: the block product at n added to zero when n's
    column block is the first, else to what position n - 1 left. -/
def acc2 (c : Dev nD) : (n : ℕ) → n < cfg2.N → Vec F S2048x128 .f32
  | 0, hn => k2_pay2 (blk2 V c 0 ⟨0, hn⟩) (blk2 V c 1 ⟨0, hn⟩) (k2_pay1 (F := F))
  | n + 1, hn =>
    if (n + 1) % 8 = 0 then k2_pay2 (blk2 V c 0 ⟨n + 1, hn⟩) (blk2 V c 1 ⟨n + 1, hn⟩) (k2_pay1 (F := F))
    else k2_pay2 (blk2 V c 0 ⟨n + 1, hn⟩) (blk2 V c 1 ⟨n + 1, hn⟩) (acc2 c n (Nat.lt_of_succ_lt hn))

theorem acc2_first (c : Dev nD) (t : Fin cfg2.N) (h : t.val % 8 = 0) :
    acc2 V c t.val t.isLt = k2_pay2 (blk2 V c 0 t) (blk2 V c 1 t) (k2_pay1 (F := F)) := by
  obtain ⟨n, hn⟩ := t
  cases n with
  | zero => rfl
  | succ n => exact if_pos h

theorem acc2_next (c : Dev nD) (t : Fin cfg2.N) (h : ¬t.val % 8 = 0) :
    acc2 V c t.val t.isLt = k2_pay2 (blk2 V c 0 t) (blk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position n: at the start what the region hands over; afterwards the accumulator at what position
    n - 1 left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) accM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) accM2 fullShare (acc2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) accM2 fullShare (acc2 V c (n - 1) (by omega)) ∗ others2 c) ∗ (∃ r, prngReg c r)) := by
  cases n with
  | zero => exact absurd rfl hz
  | succ n => rfl

/-! ## The proof data of the region -/

/-- The arrays as the region finds them; after the body each input's buffer at its block and the output's at
    the accumulator (read only where the column block is the last); the invariant above; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = blk2 V c 0 t :=
  found2_0 V (dat2 V c) (A_eq2 V c 0) (after2_0 V c) t d
theorem before2_1 (c : Dev nD) (t : Fin cfg2.N) (d) : (dat2 V c).before 1 t d = blk2 V c 1 t :=
  found2_1 V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the point's column block: first, middle or last. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 32 := lt_of_lt_of_eq t.isLt (show cfg2.N = 32 from N_2)
  by_cases h0 : t.val % 8 = 0
  · have h1 : ¬t.val % 8 = 7 := by omega
    have hc0 : first2 (grid2.coords t) := (first2_iff t).mpr h0
    have hc1 : ¬last2 (grid2.coords t) := fun h => h1 ((last2_iff t).mp h)
    rw [Dat.leavesExact_idle (dat2 V c) 2 t (idle2_2 t hc1) (noFlush2_2 t hc1)]
    rw [acc2_first V c t h0]
    by_cases hz : t.val = 0
    · rw [PhiS2_castSucc V c t, PhiS2_zero V c _ _ hz, PhiA2_eq]
      iintro ⟨⟨⟨HS, Hoth⟩, Hg⟩, Ho, ⟨%d0, H0⟩, ⟨%d1, H1⟩, ⟨%d2, H2⟩⟩
      iapply (run2_first c (grid2.coords t) _ _ _ _ _ _ _ _ hc0 hc1 (blk2 V c 0 t) (blk2 V c 1 t) ((dat2 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, Hoth⟩, Hg⟩, Ho, ⟨%d0, H0⟩, ⟨%d1, H1⟩, ⟨%d2, H2⟩⟩
      iapply (run2_first c (grid2.coords t) _ _ _ _ _ _ _ _ hc0 hc1 (blk2 V c 0 t) (blk2 V c 1 t) ((dat2 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    have hc0 : ¬first2 (grid2.coords t) := fun h => h0 ((first2_iff t).mp h)
    rw [acc2_next V c t h0, PhiS2_castSucc V c t, PhiS2_pos V c _ _ hz]
    by_cases h1 : t.val % 8 = 7
    · have hc1 : last2 (grid2.coords t) := (last2_iff t).mpr h1
      rw [show (dat2 V c).leavesExact 2 t = owns (c : Thread nD τ) (ms2_2 t) fullShare ((dat2 V c).after 2 t) from by
        unfold Dat.leavesExact; rw [live2_2 t hc1], after2_2, acc2_next V c t h0]
      iintro ⟨⟨⟨HS, Hoth⟩, Hg⟩, Ho, ⟨%d0, H0⟩, ⟨%d1, H1⟩, ⟨%d2, H2⟩⟩
      iapply (run2_last c (grid2.coords t) _ _ _ _ _ _ _ _ hc0 hc1 (blk2 V c 0 t) (blk2 V c 1 t) (acc2 V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬last2 (grid2.coords t) := fun h => h1 ((last2_iff t).mp h)
      rw [Dat.leavesExact_idle (dat2 V c) 2 t (idle2_2 t hc1) (noFlush2_2 t hc1)]
      iintro ⟨⟨⟨HS, Hoth⟩, Hg⟩, Ho, ⟨%d0, H0⟩, ⟨%d1, H1⟩, ⟨%d2, H2⟩⟩
      iapply (run2_mid c (grid2.coords t) _ _ _ _ _ _ _ _ hc0 hc1 (blk2 V c 0 t) (blk2 V c 1 t) ((dat2 V c).before 2 t d2) (acc2 V c (t.val - 1) _) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the region hands over is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the same back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hoth⟩, Hg⟩
  isplitl [HS Hoth]
  · isplitl [HS]
    · iexists _; iexact HS
    iexact Hoth
  iexact Hg

end Cert.Kernel.Hand

end
-- ==== Proof.K.Run.lean ====
/-
  The run of the kernel program as printed: seven segments from the launch to the return — a stretch of
  host operations, the first blocked product, a stretch, the second product, a stretch, the third product,
  and the closing stretch that forms the weighted sum.  The buffers' contents at each segment boundary are
  written as a fold from the launch memory: a host stretch rewrites the buffers its operations write, a
  blocked product rewrites its three windowed arrays (the two inputs stay, the output ends at what the
  write-backs of the grid's points leave).  The run theorem reads every unscoped buffer's final contents
  off the last boundary of that fold.
-/
import proofs.«134114_j48223892800206_1_alg».proof.Proof.K.Body0
import proofs.«134114_j48223892800206_1_alg».proof.Proof.K.Body1
import proofs.«134114_j48223892800206_1_alg».proof.Proof.K.Body2
import proofs.«134114_j48223892800206_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)
/-- After the host stretch before product 0: what product 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After product 0: its three arrays at what the pipeline leaves (the inputs as entered, the output at the
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before product 1: what product 1 is entered from. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- After product 1: its three arrays at what the pipeline leaves (the inputs as entered, the output at the
    write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before product 2: what product 2 is entered from. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- After product 2: its three arrays at what the pipeline leaves (the inputs as entered, the output at the
    write-backs folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the closing host stretch: the contents the run ends at. -/
abbrev W7 : Dev nD → Valuation τ sig (Elt F) := fun c => StableHlo.after hostOps3 (W6 m ρ c)

/-! ## The proof data family and the thread state -/

/-- The prefetched tables' admissible contents: no product has a table. -/
abbrev adm : (p : Fin 3) → (pcfgs (F := F) p).Adm := fun p => (cfgs p).toPCfg_adm
/-- Every product's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the
    core owing nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends
    at those references holding what the stretch's operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part: every unscoped buffer at the last boundary's contents, the
    generator register at some state. -/
abbrev Tₙ (c : Dev nD) : sProp 𝕄 := iprop(StableHlo.held (c : Thread nD τ) (Pipeline.ucRefs τ sig) (W7 m ρ c) ∗ ∃ r, prngReg c r)

/-! ## The products as segments -/

set_option backward.isDefEq.respectTransparency.types false in
/-- Product 0 over the thread state: entered from every unscoped buffer at W1, left at W2.  Its three
    arrays are split out of the unscoped buffers and put back at the exit contents; the generator register and
    the scoped buffers no window stages (the accumulator among them) go into the invariant before the first
    point and come back out of it after the last, the accumulator's contents forgotten; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 1 over the thread state: entered from every unscoped buffer at W3, left at W4.  Its three
    arrays are split out of the unscoped buffers and put back at the exit contents; the generator register and
    the scoped buffers no window stages (the accumulator among them) go into the invariant before the first
    point and come back out of it after the last, the accumulator's contents forgotten; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 2 over the thread state: entered from every unscoped buffer at W5, left at W6.  Its three
    arrays are split out of the unscoped buffers and put back at the exit contents; the generator register and
    the scoped buffers no window stages (the accumulator among them) go into the invariant before the first
    point and come back out of it after the last, the accumulator's contents forgotten; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order: a host segment per stretch from its boundary's contents, a region
    per blocked product. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- The program is the run of its segments. -/
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

set_option backward.isDefEq.respectTransparency.types false in
/-- THE RUN.  From any memory with zero counters every weakly fair execution of the program on the TensorCores
    terminates, nothing faulting, and in every final state each unscoped buffer of each core holds what the
    fold of the seven segments leaves in it. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-! ## What the fold leaves in the buffers the proof of the values reads -/

/-- The first product is entered with both its input arrays as launched. -/
theorem V1_arg0 (c : Dev nD) : V1 m ρ c main_arg0 = m ((c : Thread nD τ).loc main_arg0) :=
  StableHlo.after_of_writes_sub hostOps0 _ hostOps0_writes (by decide)
theorem V1_arg1 (c : Dev nD) : V1 m ρ c main_arg1 = m ((c : Thread nD τ).loc main_arg1) :=
  StableHlo.after_of_writes_sub hostOps0 _ hostOps0_writes (by decide)
/-- The second product is entered with the matrix as launched and the first product's output as its vector
    input. -/
theorem V3_arg1 (c : Dev nD) : V3 m ρ c main_arg1 = m ((c : Thread nD τ).loc main_arg1) :=
  (StableHlo.after_of_writes_sub hostOps1 _ hostOps1_writes (by decide)).trans <|
    (W2_arr m ρ c 0).trans <| ((dat0 (V1 m ρ) c).arrAt_in 0 rfl _).trans <| (A_eq0 (V1 m ρ) c 0).trans (V1_arg1 m ρ c)
theorem V3_v4 (c : Dev nD) : V3 m ρ c main_v4 = (dat0 (V1 m ρ) c).arrAt 2 cfg0.N :=
  (StableHlo.after_of_writes_sub hostOps1 _ hostOps1_writes (by decide)).trans (W2_arr m ρ c 2)
/-- The third product is entered with the matrix as launched and the second product's output as its vector
    input. -/
theorem V5_arg1 (c : Dev nD) : V5 m ρ c main_arg1 = m ((c : Thread nD τ).loc main_arg1) :=
  (StableHlo.after_of_writes_sub hostOps2 _ hostOps2_writes (by decide)).trans <|
    (W4_arr m ρ c 0).trans <| ((dat1 (V3 m ρ) c).arrAt_in 0 rfl _).trans <| (A_eq1 (V3 m ρ) c 0).trans (V3_arg1 m ρ c)
theorem V5_v10 (c : Dev nD) : V5 m ρ c main_v10 = (dat1 (V3 m ρ) c).arrAt 2 cfg1.N :=
  (StableHlo.after_of_writes_sub hostOps2 _ hostOps2_writes (by decide)).trans (W4_arr m ρ c 2)

/-! ### The arguments end as launched: no host operation writes one, and a product reads it through an input
    window or not at all -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := V1_arg0 m ρ c

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := (W6_arr m ρ c 0).trans (((dat2 (V5 m ρ) c).arrAt_in 0 rfl _).trans (A_eq2 (V5 m ρ) c 0))
    _ = m ((c : Thread nD τ).loc main_arg1) := V5_arg1 m ρ c

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- THE FRAME: the program runs, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩) (run_all m ρ)

/-! ## The weighted sum the closing stretch leaves in the result buffer

Each host stretch slices one coefficient out of the coefficient vector, spreads it over the result's shape,
multiplies it into the latest product's output (the first stretch: into the launched vector itself) and adds the
running sum.  Reading the fold stretch by stretch: the coefficient vector is never written, so every stretch
slices the launched one; a product changes only its own output array, so the running sum passes through it. -/

theorem W2_main_arg2 (c : Dev nD) : W2 m ρ c (Proc.devRef .tc main_arg2) = m ((c : Thread nD τ).loc main_arg2) :=
  (W2_of_ne m ρ c main_arg2 (by decide)).trans <|
    (StableHlo.after_of_writes_sub hostOps0 _ hostOps0_writes (by decide)).trans rfl
theorem W4_main_arg2 (c : Dev nD) : W4 m ρ c (Proc.devRef .tc main_arg2) = m ((c : Thread nD τ).loc main_arg2) :=
  (W4_of_ne m ρ c main_arg2 (by decide)).trans <|
    (StableHlo.after_of_writes_sub hostOps1 _ hostOps1_writes (by decide)).trans (W2_main_arg2 m ρ c)
theorem W6_main_arg2 (c : Dev nD) : W6 m ρ c (Proc.devRef .tc main_arg2) = m ((c : Thread nD τ).loc main_arg2) :=
  (W6_of_ne m ρ c main_arg2 (by decide)).trans <|
    (StableHlo.after_of_writes_sub hostOps2 _ hostOps2_writes (by decide)).trans (W4_main_arg2 m ρ c)
/-- Each product's output array, as the product leaves it. -/
theorem W2_v4 (c : Dev nD) : W2 m ρ c (Proc.devRef .tc main_v4) = (dat0 (V1 m ρ) c).arrAt 2 cfg0.N := W2_arr m ρ c 2
theorem W4_v10 (c : Dev nD) : W4 m ρ c (Proc.devRef .tc main_v10) = (dat1 (V3 m ρ) c).arrAt 2 cfg1.N := W4_arr m ρ c 2
theorem W6_v16 (c : Dev nD) : W6 m ρ c (Proc.devRef .tc main_v16) = (dat2 (V5 m ρ) c).arrAt 2 cfg2.N := W6_arr m ρ c 2

/-- After the first stretch: the first coefficient times the launched vector. -/
theorem W1_v3 (c : Dev nD) : W1 m ρ c (Proc.devRef .tc main_v3) = (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) := by
  show StableHlo.after hostOps0 (W0 m ρ c) (Proc.devRef .tc main_v3) = _
  after_results
  rfl

/-- After the second stretch: that plus the second coefficient times the first product. -/
theorem W3_v9 (c : Dev nD) : W3 m ρ c (Proc.devRef .tc main_v9) = (addf (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) (mulf (broadcastInDim S8192x128 ![] bcast_S_S8192x128 (shapeCast _ (extractStridedSlice S1 ![1] (m ((c : Thread nD τ).loc main_arg2)) slices_S4_S1_1) shapeCasts_S1_S_)) ((dat0 (V1 m ρ) c).arrAt 2 cfg0.N))) := by
  show StableHlo.after hostOps1 (W2 m ρ c) (Proc.devRef .tc main_v9) = _
  after_results
  rw [W2_of_ne m ρ c main_v3 (by decide), W1_v3, W2_main_arg2, W2_v4]
  rfl

/-- After the third stretch: that plus the third coefficient times the second product. -/
theorem W5_v15 (c : Dev nD) : W5 m ρ c (Proc.devRef .tc main_v15) = (addf (addf (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) (mulf (broadcastInDim S8192x128 ![] bcast_S_S8192x128 (shapeCast _ (extractStridedSlice S1 ![1] (m ((c : Thread nD τ).loc main_arg2)) slices_S4_S1_1) shapeCasts_S1_S_)) ((dat0 (V1 m ρ) c).arrAt 2 cfg0.N))) (mulf (broadcastInDim S8192x128 ![] bcast_S_S8192x128 (shapeCast _ (extractStridedSlice S1 ![2] (m ((c : Thread nD τ).loc main_arg2)) slices_S4_S1_2) shapeCasts_S1_S_)) ((dat1 (V3 m ρ) c).arrAt 2 cfg1.N))) := by
  show StableHlo.after hostOps2 (W4 m ρ c) (Proc.devRef .tc main_v15) = _
  after_results
  rw [W4_of_ne m ρ c main_v9 (by decide), W3_v9, W4_main_arg2, W4_v10]
  rfl

/-- THE RESULT: the closing stretch leaves the sum of the four coefficients times the launched vector and the
    three products' outputs. -/
theorem W7_v21 (c : Dev nD) : W7 m ρ c (Proc.devRef .tc main_v21) = (addf (addf (addf (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) (mulf (broadcastInDim S8192x128 ![] bcast_S_S8192x128 (shapeCast _ (extractStridedSlice S1 ![1] (m ((c : Thread nD τ).loc main_arg2)) slices_S4_S1_1) shapeCasts_S1_S_)) ((dat0 (V1 m ρ) c).arrAt 2 cfg0.N))) (mulf (broadcastInDim S8192x128 ![] bcast_S_S8192x128 (shapeCast _ (extractStridedSlice S1 ![2] (m ((c : Thread nD τ).loc main_arg2)) slices_S4_S1_2) shapeCasts_S1_S_)) ((dat1 (V3 m ρ) c).arrAt 2 cfg1.N))) (mulf (broadcastInDim S8192x128 ![] bcast_S_S8192x128 (shapeCast _ (extractStridedSlice S1 ![3] (m ((c : Thread nD τ).loc main_arg2)) slices_S4_S1_3) shapeCasts_S1_S_)) ((dat2 (V5 m ρ) c).arrAt 2 cfg2.N))) := by
  show StableHlo.after hostOps3 (W6 m ρ c) (Proc.devRef .tc main_v21) = _
  after_results
  rw [W6_of_ne m ρ c main_v15 (by decide), W5_v15, W6_main_arg2, W6_v16]
  rfl

end Cert.Kernel.Hand

end
-- ==== Proof.KI.Common.lean ====
/-
  Two facts every access of the blocked product's body uses: all its rectangles start at the origin, and a
  buffer read back after a list of stores whose last store fills it holds that store's value.
-/
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offset of every access of the body: the origin. -/
theorem origin2 : (![0, 0] : Fin 2 → ℕ) = fun _ => 0 := by funext a; fin_cases a <;> rfl

/-- Reading a buffer back after a list of stores whose LAST store (the head) fills the whole buffer gives that
    store's value. -/
theorem read_after_whole_store {S : Shape} {e : EltTy} {sig' : RefSig} {κ : Kind} {sp : Space} (v : View sig' κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, by
    subst hz; show y ∈ (Rect.whole S).set; rw [Rect.set_whole]; exact Finset.mem_univ y⟩)).trans
    (View.canon_cons_unit_zero hz inb w L)

end Cert.KernelIdeal.Hand

end
-- ==== Proof.KI.Body0.lean ====
/-
  Region 0 of the idealized kernel program: one grid point of the blocked product.
  The grid is 4 row blocks by 8 column blocks; point t is row block t / 8, column block t % 8.
  At a point the body adds (S block) · (Z block) to a 2048 × 128 accumulator kept in scratch,
  after zeroing it when the column block is the first, and copies it to the output block when
  the column block is the last.  This module fixes the names the other modules use.
-/
import proofs.«134114_j48223892800206_1_alg».proof.Proof.Gen.KernelIdeal.Launch
import proofs.«134114_j48223892800206_1_alg».proof.Proof.Gen.KernelIdeal.Skeleton
import proofs.«134114_j48223892800206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«134114_j48223892800206_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windowed arrays -/

/-- Window w's block at point t, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The S window's staging buffer holds the S block at every point. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The Z window's staging buffer holds the Z block at every point. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The two conditions of the body, over the grid -/

/-- The column block is the first one. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 8 = 0 :=
  (by decide +kernel : ∀ t : Fin grid0.N, first0 (grid0.coords t) ↔ t.val % 8 = 0)

/-- The column block is the last one. -/
abbrev last0 (i : grid0.Coords) : Prop := k0_cond2 i = 1#1
theorem last0_iff : ∀ t : Fin cfg0.N, last0 (grid0.coords t) ↔ t.val % 8 = 7 :=
  (by decide +kernel : ∀ t : Fin grid0.N, last0 (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle, and not written back, away from the last column block; live at it. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The accumulator: the kernel's scratch buffer, whole. -/
abbrev accM0 : Memref sig .tc .vmem S2048x128 .f32 := Memref.whole cc0_scratch0

/-- The scoped buffers that are neither staging buffers of this call nor its accumulator, at anything. -/
abbrev others0 (c : Dev nD) : sProp 𝕄 :=
  Pipeline.scopedRestBut (Ix := Unit) (Name := ℕ) (U := UR sig nD τ) (Lvl := ℕ) (Val := Elt F) spec0 c [cc0_scratch0]

/-- What the region hands the body before the first point: the accumulator at anything, the other scoped
    buffers, the generator register. -/
theorem PhiA0_eq (c : Dev nD) :
    (Pipeline.ΦA spec0 c : sProp 𝕄)
      = iprop(iprop((∃ d, owns (c : Thread nD τ) accM0 fullShare d) ∗ others0 c) ∗ (∃ r, prngReg c r)) := by
  unfold Pipeline.ΦA
  rw [Pipeline.scopedRest_split_of_list spec0 c [cc0_scratch0] (by decide) (by decide)]
  simp only [accM0, owns_whole, bigSepL]
  rfl

/-! ## One point of the body, case by case -/

set_option maxHeartbeats 1000000 in
/-- FIRST column block (and not the last): the accumulator, whatever it held, ends at the block product added
    to zero; the inputs' buffers and the output's buffer are handed back as found. -/
theorem run0_first (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : first0 i) (h1 : ¬last0 i)
    (x0 : Vec F S2048x1024 .f32) (x1 : Vec F S1024x128 .f32) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k0_pay2 x0 x1 (k0_pay1 (F := F)))) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, View.ld_unit_zero (S := S2048x1024) origin2, View.ld_unit_zero (S := S1024x128) origin2]
  exact congrArg _ (View.readCov_unit_zero (S := S2048x128) arg5.view origin2 _ _)

set_option maxHeartbeats 1000000 in
/-- A MIDDLE column block: the accumulator at a ends at a plus the block product. -/
theorem run0_mid (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first0 i) (h1 : ¬last0 i)
    (x0 : Vec F S2048x1024 .f32) (x1 : Vec F S1024x128 .f32) (y : Vec F S2048x128 .f32) (a : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

set_option maxHeartbeats 1000000 in
/-- The LAST column block (and not the first): the accumulator at a ends at a plus the block product, and the
    output's buffer, whatever it held, ends at the same. -/
theorem run0_last (c : Dev nD) (i : grid0.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first0 i) (h1 : last0 i)
    (x0 : Vec F S2048x1024 .f32) (x1 : Vec F S1024x128 .f32) (a : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1 ∗ owns (c : Thread nD τ) arg4 fullShare (k0_pay2 x0 x1 a)
            ∗ owns (c : Thread nD τ) arg5 fullShare (k0_pay2 x0 x1 a)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    refine (read_after_whole_store _ _ origin2 _ _ _).trans ?_
    sl_unfold_run_names
    simp only [View.readAt_eq_ld, harg2.read_unread, harg3.read_unread, harg5.read_unread, View.ld_unit_zero (S := S2048x1024) origin2, View.ld_unit_zero (S := S1024x128) origin2, View.ld_unit_zero (S := S2048x128) origin2]
    exact View.readCov_unit_zero (S := S2048x128) arg5.view origin2 _ _
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

/-! ## The accumulator after each point -/

/-- What the accumulator holds after the body at position n: the block product at n added to zero when n's
    column block is the first, else to what position n - 1 left. -/
def acc0 (c : Dev nD) : (n : ℕ) → n < cfg0.N → Vec F S2048x128 .f32
  | 0, hn => k0_pay2 (blk0 V c 0 ⟨0, hn⟩) (blk0 V c 1 ⟨0, hn⟩) (k0_pay1 (F := F))
  | n + 1, hn =>
    if (n + 1) % 8 = 0 then k0_pay2 (blk0 V c 0 ⟨n + 1, hn⟩) (blk0 V c 1 ⟨n + 1, hn⟩) (k0_pay1 (F := F))
    else k0_pay2 (blk0 V c 0 ⟨n + 1, hn⟩) (blk0 V c 1 ⟨n + 1, hn⟩) (acc0 c n (Nat.lt_of_succ_lt hn))

theorem acc0_first (c : Dev nD) (t : Fin cfg0.N) (h : t.val % 8 = 0) :
    acc0 V c t.val t.isLt = k0_pay2 (blk0 V c 0 t) (blk0 V c 1 t) (k0_pay1 (F := F)) := by
  obtain ⟨n, hn⟩ := t
  cases n with
  | zero => rfl
  | succ n => exact if_pos h

theorem acc0_next (c : Dev nD) (t : Fin cfg0.N) (h : ¬t.val % 8 = 0) :
    acc0 V c t.val t.isLt = k0_pay2 (blk0 V c 0 t) (blk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position n: at the start what the region hands over; afterwards the accumulator at what position
    n - 1 left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) accM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) accM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) accM0 fullShare (acc0 V c (n - 1) (by omega)) ∗ others0 c) ∗ (∃ r, prngReg c r)) := by
  cases n with
  | zero => exact absurd rfl hz
  | succ n => rfl

/-! ## The proof data of the region -/

/-- The arrays as the region finds them; after the body each input's buffer at its block and the output's at
    the accumulator (read only where the column block is the last); the invariant above; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = blk0 V c 0 t :=
  found0_0 V (dat0 V c) (A_eq0 V c 0) (after0_0 V c) t d
theorem before0_1 (c : Dev nD) (t : Fin cfg0.N) (d) : (dat0 V c).before 1 t d = blk0 V c 1 t :=
  found0_1 V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point, by the point's column block: first, middle or last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hN : t.val < 32 := lt_of_lt_of_eq t.isLt (show cfg0.N = 32 from N_0)
  by_cases h0 : t.val % 8 = 0
  · have h1 : ¬t.val % 8 = 7 := by omega
    have hc0 : first0 (grid0.coords t) := (first0_iff t).mpr h0
    have hc1 : ¬last0 (grid0.coords t) := fun h => h1 ((last0_iff t).mp h)
    rw [Dat.leavesExact_idle (dat0 V c) 2 t (idle0_2 t hc1) (noFlush0_2 t hc1)]
    rw [acc0_first V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩⟩
      iapply (run0_first c (grid0.coords t) _ _ _ _ _ _ _ _ hc0 hc1 (blk0 V c 0 t) (blk0 V c 1 t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hoth⟩, Hg⟩, Ho, ⟨%d0, H0⟩, ⟨%d1, H1⟩, ⟨%d2, H2⟩⟩
      iapply (run0_first c (grid0.coords t) _ _ _ _ _ _ _ _ hc0 hc1 (blk0 V c 0 t) (blk0 V c 1 t) ((dat0 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    have hc0 : ¬first0 (grid0.coords t) := fun h => h0 ((first0_iff t).mp h)
    rw [acc0_next V c t h0, PhiS0_castSucc V c t, PhiS0_pos V c _ _ hz]
    by_cases h1 : t.val % 8 = 7
    · have hc1 : last0 (grid0.coords t) := (last0_iff t).mpr h1
      rw [show (dat0 V c).leavesExact 2 t = owns (c : Thread nD τ) (ms0_2 t) fullShare ((dat0 V c).after 2 t) from by
        unfold Dat.leavesExact; rw [live0_2 t hc1], after0_2, acc0_next V c t h0]
      iintro ⟨⟨⟨HS, Hoth⟩, Hg⟩, Ho, ⟨%d0, H0⟩, ⟨%d1, H1⟩, ⟨%d2, H2⟩⟩
      iapply (run0_last c (grid0.coords t) _ _ _ _ _ _ _ _ hc0 hc1 (blk0 V c 0 t) (blk0 V c 1 t) (acc0 V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬last0 (grid0.coords t) := fun h => h1 ((last0_iff t).mp h)
      rw [Dat.leavesExact_idle (dat0 V c) 2 t (idle0_2 t hc1) (noFlush0_2 t hc1)]
      iintro ⟨⟨⟨HS, Hoth⟩, Hg⟩, Ho, ⟨%d0, H0⟩, ⟨%d1, H1⟩, ⟨%d2, H2⟩⟩
      iapply (run0_mid c (grid0.coords t) _ _ _ _ _ _ _ _ hc0 hc1 (blk0 V c 0 t) (blk0 V c 1 t) ((dat0 V c).before 2 t d2) (acc0 V c (t.val - 1) _) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the region hands over is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the same back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.KI.Body1.lean ====
/-
  Region 1 of the idealized kernel program: one grid point of the blocked product.
  The grid is 4 row blocks by 8 column blocks; point t is row block t / 8, column block t % 8.
  At a point the body adds (S block) · (Z block) to a 2048 × 128 accumulator kept in scratch,
  after zeroing it when the column block is the first, and copies it to the output block when
  the column block is the last.  This module fixes the names the other modules use.
-/
import proofs.«134114_j48223892800206_1_alg».proof.Proof.Gen.KernelIdeal.Launch
import proofs.«134114_j48223892800206_1_alg».proof.Proof.Gen.KernelIdeal.Skeleton
import proofs.«134114_j48223892800206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«134114_j48223892800206_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windowed arrays -/

/-- Window w's block at point t, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The S window's staging buffer holds the S block at every point. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The Z window's staging buffer holds the Z block at every point. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-! ## The two conditions of the body, over the grid -/

/-- The column block is the first one. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)

/-- The column block is the last one. -/
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle, and not written back, away from the last column block; live at it. -/
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The memrefs the body is called with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: the kernel's scratch buffer, whole. -/
abbrev accM1 : Memref sig .tc .vmem S2048x128 .f32 := Memref.whole cc1_scratch0

/-- The scoped buffers that are neither staging buffers of this call nor its accumulator, at anything. -/
abbrev others1 (c : Dev nD) : sProp 𝕄 :=
  Pipeline.scopedRestBut (Ix := Unit) (Name := ℕ) (U := UR sig nD τ) (Lvl := ℕ) (Val := Elt F) spec1 c [cc1_scratch0]

/-- What the region hands the body before the first point: the accumulator at anything, the other scoped
    buffers, the generator register. -/
theorem PhiA1_eq (c : Dev nD) :
    (Pipeline.ΦA spec1 c : sProp 𝕄)
      = iprop(iprop((∃ d, owns (c : Thread nD τ) accM1 fullShare d) ∗ others1 c) ∗ (∃ r, prngReg c r)) := by
  unfold Pipeline.ΦA
  rw [Pipeline.scopedRest_split_of_list spec1 c [cc1_scratch0] (by decide) (by decide)]
  simp only [accM1, owns_whole, bigSepL]
  rfl

/-! ## One point of the body, case by case -/

set_option maxHeartbeats 1000000 in
/-- FIRST column block (and not the last): the accumulator, whatever it held, ends at the block product added
    to zero; the inputs' buffers and the output's buffer are handed back as found. -/
theorem run1_first (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : first1 i) (h1 : ¬last1 i)
    (x0 : Vec F S2048x1024 .f32) (x1 : Vec F S1024x128 .f32) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 (k1_pay1 (F := F)))) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, View.ld_unit_zero (S := S2048x1024) origin2, View.ld_unit_zero (S := S1024x128) origin2]
  exact congrArg _ (View.readCov_unit_zero (S := S2048x128) arg5.view origin2 _ _)

set_option maxHeartbeats 1000000 in
/-- A MIDDLE column block: the accumulator at a ends at a plus the block product. -/
theorem run1_mid (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first1 i) (h1 : ¬last1 i)
    (x0 : Vec F S2048x1024 .f32) (x1 : Vec F S1024x128 .f32) (y : Vec F S2048x128 .f32) (a : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k1_pay2 x0 x1 a)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

set_option maxHeartbeats 1000000 in
/-- The LAST column block (and not the first): the accumulator at a ends at a plus the block product, and the
    output's buffer, whatever it held, ends at the same. -/
theorem run1_last (c : Dev nD) (i : grid1.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first1 i) (h1 : last1 i)
    (x0 : Vec F S2048x1024 .f32) (x1 : Vec F S1024x128 .f32) (a : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1 ∗ owns (c : Thread nD τ) arg4 fullShare (k1_pay2 x0 x1 a)
            ∗ owns (c : Thread nD τ) arg5 fullShare (k1_pay2 x0 x1 a)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    refine (read_after_whole_store _ _ origin2 _ _ _).trans ?_
    sl_unfold_run_names
    simp only [View.readAt_eq_ld, harg2.read_unread, harg3.read_unread, harg5.read_unread, View.ld_unit_zero (S := S2048x1024) origin2, View.ld_unit_zero (S := S1024x128) origin2, View.ld_unit_zero (S := S2048x128) origin2]
    exact View.readCov_unit_zero (S := S2048x128) arg5.view origin2 _ _
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

/-! ## The accumulator after each point -/

/-- What the accumulator holds after the body at position n: the block product at n added to zero when n's
    column block is the first, else to what position n - 1 left. -/
def acc1 (c : Dev nD) : (n : ℕ) → n < cfg1.N → Vec F S2048x128 .f32
  | 0, hn => k1_pay2 (blk1 V c 0 ⟨0, hn⟩) (blk1 V c 1 ⟨0, hn⟩) (k1_pay1 (F := F))
  | n + 1, hn =>
    if (n + 1) % 8 = 0 then k1_pay2 (blk1 V c 0 ⟨n + 1, hn⟩) (blk1 V c 1 ⟨n + 1, hn⟩) (k1_pay1 (F := F))
    else k1_pay2 (blk1 V c 0 ⟨n + 1, hn⟩) (blk1 V c 1 ⟨n + 1, hn⟩) (acc1 c n (Nat.lt_of_succ_lt hn))

theorem acc1_first (c : Dev nD) (t : Fin cfg1.N) (h : t.val % 8 = 0) :
    acc1 V c t.val t.isLt = k1_pay2 (blk1 V c 0 t) (blk1 V c 1 t) (k1_pay1 (F := F)) := by
  obtain ⟨n, hn⟩ := t
  cases n with
  | zero => rfl
  | succ n => exact if_pos h

theorem acc1_next (c : Dev nD) (t : Fin cfg1.N) (h : ¬t.val % 8 = 0) :
    acc1 V c t.val t.isLt = k1_pay2 (blk1 V c 0 t) (blk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position n: at the start what the region hands over; afterwards the accumulator at what position
    n - 1 left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) accM1 fullShare (acc1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) accM1 fullShare (acc1 V c n hn) ∗ others1 c) ∗ (∃ r, prngReg c r)) := rfl

theorem PhiS1_pos (c : Dev nD) (n : ℕ) (h : n ≤ cfg1.N) (hz : n ≠ 0) :
    PhiS1 V c n h = iprop(iprop(owns (c : Thread nD τ) accM1 fullShare (acc1 V c (n - 1) (by omega)) ∗ others1 c) ∗ (∃ r, prngReg c r)) := by
  cases n with
  | zero => exact absurd rfl hz
  | succ n => rfl

/-! ## The proof data of the region -/

/-- The arrays as the region finds them; after the body each input's buffer at its block and the output's at
    the accumulator (read only where the column block is the last); the invariant above; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = blk1 V c 0 t :=
  found1_0 V (dat1 V c) (A_eq1 V c 0) (after1_0 V c) t d
theorem before1_1 (c : Dev nD) (t : Fin cfg1.N) (d) : (dat1 V c).before 1 t d = blk1 V c 1 t :=
  found1_1 V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the point's column block: first, middle or last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 32 := lt_of_lt_of_eq t.isLt (show cfg1.N = 32 from N_1)
  by_cases h0 : t.val % 8 = 0
  · have h1 : ¬t.val % 8 = 7 := by omega
    have hc0 : first1 (grid1.coords t) := (first1_iff t).mpr h0
    have hc1 : ¬last1 (grid1.coords t) := fun h => h1 ((last1_iff t).mp h)
    rw [Dat.leavesExact_idle (dat1 V c) 2 t (idle1_2 t hc1) (noFlush1_2 t hc1)]
    rw [acc1_first V c t h0]
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩⟩
      iapply (run1_first c (grid1.coords t) _ _ _ _ _ _ _ _ hc0 hc1 (blk1 V c 0 t) (blk1 V c 1 t) ((dat1 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hoth⟩, Hg⟩, Ho, ⟨%d0, H0⟩, ⟨%d1, H1⟩, ⟨%d2, H2⟩⟩
      iapply (run1_first c (grid1.coords t) _ _ _ _ _ _ _ _ hc0 hc1 (blk1 V c 0 t) (blk1 V c 1 t) ((dat1 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    have hc0 : ¬first1 (grid1.coords t) := fun h => h0 ((first1_iff t).mp h)
    rw [acc1_next V c t h0, PhiS1_castSucc V c t, PhiS1_pos V c _ _ hz]
    by_cases h1 : t.val % 8 = 7
    · have hc1 : last1 (grid1.coords t) := (last1_iff t).mpr h1
      rw [show (dat1 V c).leavesExact 2 t = owns (c : Thread nD τ) (ms1_2 t) fullShare ((dat1 V c).after 2 t) from by
        unfold Dat.leavesExact; rw [live1_2 t hc1], after1_2, acc1_next V c t h0]
      iintro ⟨⟨⟨HS, Hoth⟩, Hg⟩, Ho, ⟨%d0, H0⟩, ⟨%d1, H1⟩, ⟨%d2, H2⟩⟩
      iapply (run1_last c (grid1.coords t) _ _ _ _ _ _ _ _ hc0 hc1 (blk1 V c 0 t) (blk1 V c 1 t) (acc1 V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬last1 (grid1.coords t) := fun h => h1 ((last1_iff t).mp h)
      rw [Dat.leavesExact_idle (dat1 V c) 2 t (idle1_2 t hc1) (noFlush1_2 t hc1)]
      iintro ⟨⟨⟨HS, Hoth⟩, Hg⟩, Ho, ⟨%d0, H0⟩, ⟨%d1, H1⟩, ⟨%d2, H2⟩⟩
      iapply (run1_mid c (grid1.coords t) _ _ _ _ _ _ _ _ hc0 hc1 (blk1 V c 0 t) (blk1 V c 1 t) ((dat1 V c).before 2 t d2) (acc1 V c (t.val - 1) _) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the region hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the same back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS, Hoth⟩, Hg⟩
  isplitl [HS Hoth]
  · isplitl [HS]
    · iexists _; iexact HS
    iexact Hoth
  iexact Hg

end Cert.KernelIdeal.Hand

end
-- ==== Proof.KI.Body2.lean ====
/-
  Region 2 of the idealized kernel program: one grid point of the blocked product.
  The grid is 4 row blocks by 8 column blocks; point t is row block t / 8, column block t % 8.
  At a point the body adds (S block) · (Z block) to a 2048 × 128 accumulator kept in scratch,
  after zeroing it when the column block is the first, and copies it to the output block when
  the column block is the last.  This module fixes the names the other modules use.
-/
import proofs.«134114_j48223892800206_1_alg».proof.Proof.Gen.KernelIdeal.Launch
import proofs.«134114_j48223892800206_1_alg».proof.Proof.Gen.KernelIdeal.Skeleton
import proofs.«134114_j48223892800206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«134114_j48223892800206_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windowed arrays -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The S window's staging buffer holds the S block at every point. -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The Z window's staging buffer holds the Z block at every point. -/
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## The two conditions of the body, over the grid -/

/-- The column block is the first one. -/
abbrev first2 (i : grid2.Coords) : Prop := (Scalar.cmpi .ne (Scalar.extui (Scalar.cmpi .eq (BitVec.ofNat 32 (i 1).val) 0#32)) 0#32) = 1#1
theorem first2_iff : ∀ t : Fin cfg2.N, first2 (grid2.coords t) ↔ t.val % 8 = 0 :=
  (by decide +kernel : ∀ t : Fin grid2.N, first2 (grid2.coords t) ↔ t.val % 8 = 0)

/-- The column block is the last one. -/
abbrev last2 (i : grid2.Coords) : Prop := k2_cond2 i = 1#1
theorem last2_iff : ∀ t : Fin cfg2.N, last2 (grid2.coords t) ↔ t.val % 8 = 7 :=
  (by decide +kernel : ∀ t : Fin grid2.N, last2 (grid2.coords t) ↔ t.val % 8 = 7)

/-- The input windows are never idle. -/
theorem live2_0 : ∀ t : Fin cfg2.N, cfg2.idle 0 (grid2.coords t) = false := by decide +kernel
theorem live2_1 : ∀ t : Fin cfg2.N, cfg2.idle 1 (grid2.coords t) = false := by decide +kernel
/-- The output window is idle, and not written back, away from the last column block; live at it. -/
theorem idle2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem live2_2 : ∀ t : Fin cfg2.N, last2 (grid2.coords t) → cfg2.idle 2 (grid2.coords t) = false := by decide +kernel

/-! ## The memrefs the body is called with -/

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x128 .f32 := win2_2.stage (cfg2.slots t 2)
abbrev hs2_2 (t : Fin cfg2.N) : (ms2_2 t).IsWhole := hstage2_2 ((cfg2.slots t 2).cast nbuf2_2)
/-- The accumulator: the kernel's scratch buffer, whole. -/
abbrev accM2 : Memref sig .tc .vmem S2048x128 .f32 := Memref.whole cc2_scratch0

/-- The scoped buffers that are neither staging buffers of this call nor its accumulator, at anything. -/
abbrev others2 (c : Dev nD) : sProp 𝕄 :=
  Pipeline.scopedRestBut (Ix := Unit) (Name := ℕ) (U := UR sig nD τ) (Lvl := ℕ) (Val := Elt F) spec2 c [cc2_scratch0]

/-- What the region hands the body before the first point: the accumulator at anything, the other scoped
    buffers, the generator register. -/
theorem PhiA2_eq (c : Dev nD) :
    (Pipeline.ΦA spec2 c : sProp 𝕄)
      = iprop(iprop((∃ d, owns (c : Thread nD τ) accM2 fullShare d) ∗ others2 c) ∗ (∃ r, prngReg c r)) := by
  unfold Pipeline.ΦA
  rw [Pipeline.scopedRest_split_of_list spec2 c [cc2_scratch0] (by decide) (by decide)]
  simp only [accM2, owns_whole, bigSepL]
  rfl

/-! ## One point of the body, case by case -/

set_option maxHeartbeats 1000000 in
/-- FIRST column block (and not the last): the accumulator, whatever it held, ends at the block product added
    to zero; the inputs' buffers and the output's buffer are handed back as found. -/
theorem run2_first (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : first2 i) (h1 : ¬last2 i)
    (x0 : Vec F S2048x1024 .f32) (x1 : Vec F S1024x128 .f32) (y : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ (∃ d, owns (c : Thread nD τ) arg5 fullShare d)
        ∗ (iprop(owns (c : Thread nD τ) arg2 fullShare x0 ∗ owns (c : Thread nD τ) arg3 fullShare x1 ∗ owns (c : Thread nD τ) arg4 fullShare y
            ∗ owns (c : Thread nD τ) arg5 fullShare (k2_pay2 x0 x1 (k2_pay1 (F := F)))) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, View.ld_unit_zero (S := S2048x1024) origin2, View.ld_unit_zero (S := S1024x128) origin2]
  exact congrArg _ (View.readCov_unit_zero (S := S2048x128) arg5.view origin2 _ _)

set_option maxHeartbeats 1000000 in
/-- A MIDDLE column block: the accumulator at a ends at a plus the block product. -/
theorem run2_mid (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first2 i) (h1 : ¬last2 i)
    (x0 : Vec F S2048x1024 .f32) (x1 : Vec F S1024x128 .f32) (y : Vec F S2048x128 .f32) (a : Vec F S2048x128 .f32) (E : Set ℕ) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare a
        ∗ (iprop(owns (c : Thread nD τ) arg2 fullShare x0 ∗ owns (c : Thread nD τ) arg3 fullShare x1 ∗ owns (c : Thread nD τ) arg4 fullShare y
            ∗ owns (c : Thread nD τ) arg5 fullShare (k2_pay2 x0 x1 a)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

set_option maxHeartbeats 1000000 in
/-- The LAST column block (and not the first): the accumulator at a ends at a plus the block product, and the
    output's buffer, whatever it held, ends at the same. -/
theorem run2_last (c : Dev nD) (i : grid2.Coords) (arg2 : Memref sig .tc .vmem S2048x1024 .f32) (harg2 : arg2.IsWhole) (arg3 : Memref sig .tc .vmem S1024x128 .f32) (harg3 : arg3.IsWhole) (arg4 : Memref sig .tc .vmem S2048x128 .f32) (harg4 : arg4.IsWhole) (arg5 : Memref sig .tc .vmem S2048x128 .f32) (harg5 : arg5.IsWhole)
    (h0 : ¬first2 i) (h1 : last2 i)
    (x0 : Vec F S2048x1024 .f32) (x1 : Vec F S1024x128 .f32) (a : Vec F S2048x128 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare a
        ∗ (iprop(owns (c : Thread nD τ) arg2 fullShare x0 ∗ owns (c : Thread nD τ) arg3 fullShare x1 ∗ owns (c : Thread nD τ) arg4 fullShare (k2_pay2 x0 x1 a)
            ∗ owns (c : Thread nD τ) arg5 fullShare (k2_pay2 x0 x1 a)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1; obtain rfl := harg5.eq_unread hf5
  sl_exec (disch := first | exact h0 | exact h1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    refine (read_after_whole_store _ _ origin2 _ _ _).trans ?_
    sl_unfold_run_names
    simp only [View.readAt_eq_ld, harg2.read_unread, harg3.read_unread, harg5.read_unread, View.ld_unit_zero (S := S2048x1024) origin2, View.ld_unit_zero (S := S1024x128) origin2, View.ld_unit_zero (S := S2048x128) origin2]
    exact View.readCov_unit_zero (S := S2048x128) arg5.view origin2 _ _
  iexists _; isplitr
  swap; · iexact H5
  ipureintro
  refine (read_after_whole_store _ _ origin2 _ _ _).trans ?_
  sl_unfold_run_names
  simp only [View.readAt_eq_ld, harg2.read_unread, harg3.read_unread, harg5.read_unread, View.ld_unit_zero (S := S2048x1024) origin2, View.ld_unit_zero (S := S1024x128) origin2, View.ld_unit_zero (S := S2048x128) origin2]

/-! ## The accumulator after each point -/

/-- What the accumulator holds after the body at position n: the block product at n added to zero when n's
    column block is the first, else to what position n - 1 left. -/
def acc2 (c : Dev nD) : (n : ℕ) → n < cfg2.N → Vec F S2048x128 .f32
  | 0, hn => k2_pay2 (blk2 V c 0 ⟨0, hn⟩) (blk2 V c 1 ⟨0, hn⟩) (k2_pay1 (F := F))
  | n + 1, hn =>
    if (n + 1) % 8 = 0 then k2_pay2 (blk2 V c 0 ⟨n + 1, hn⟩) (blk2 V c 1 ⟨n + 1, hn⟩) (k2_pay1 (F := F))
    else k2_pay2 (blk2 V c 0 ⟨n + 1, hn⟩) (blk2 V c 1 ⟨n + 1, hn⟩) (acc2 c n (Nat.lt_of_succ_lt hn))

theorem acc2_first (c : Dev nD) (t : Fin cfg2.N) (h : t.val % 8 = 0) :
    acc2 V c t.val t.isLt = k2_pay2 (blk2 V c 0 t) (blk2 V c 1 t) (k2_pay1 (F := F)) := by
  obtain ⟨n, hn⟩ := t
  cases n with
  | zero => rfl
  | succ n => exact if_pos h

theorem acc2_next (c : Dev nD) (t : Fin cfg2.N) (h : ¬t.val % 8 = 0) :
    acc2 V c t.val t.isLt = k2_pay2 (blk2 V c 0 t) (blk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- Before position n: at the start what the region hands over; afterwards the accumulator at what position
    n - 1 left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) accM2 fullShare (acc2 V c n hn) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) accM2 fullShare (acc2 V c n hn) ∗ others2 c) ∗ (∃ r, prngReg c r)) := rfl

theorem PhiS2_pos (c : Dev nD) (n : ℕ) (h : n ≤ cfg2.N) (hz : n ≠ 0) :
    PhiS2 V c n h = iprop(iprop(owns (c : Thread nD τ) accM2 fullShare (acc2 V c (n - 1) (by omega)) ∗ others2 c) ∗ (∃ r, prngReg c r)) := by
  cases n with
  | zero => exact absurd rfl hz
  | succ n => rfl

/-! ## The proof data of the region -/

/-- The arrays as the region finds them; after the body each input's buffer at its block and the output's at
    the accumulator (read only where the column block is the last); the invariant above; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = blk2 V c 0 t :=
  found2_0 V (dat2 V c) (A_eq2 V c 0) (after2_0 V c) t d
theorem before2_1 (c : Dev nD) (t : Fin cfg2.N) (d) : (dat2 V c).before 1 t d = blk2 V c 1 t :=
  found2_1 V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the point's column block: first, middle or last. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  have hN : t.val < 32 := lt_of_lt_of_eq t.isLt (show cfg2.N = 32 from N_2)
  by_cases h0 : t.val % 8 = 0
  · have h1 : ¬t.val % 8 = 7 := by omega
    have hc0 : first2 (grid2.coords t) := (first2_iff t).mpr h0
    have hc1 : ¬last2 (grid2.coords t) := fun h => h1 ((last2_iff t).mp h)
    rw [Dat.leavesExact_idle (dat2 V c) 2 t (idle2_2 t hc1) (noFlush2_2 t hc1)]
    rw [acc2_first V c t h0]
    by_cases hz : t.val = 0
    · rw [PhiS2_castSucc V c t, PhiS2_zero V c _ _ hz, PhiA2_eq]
      iintro ⟨⟨⟨HS, Hoth⟩, Hg⟩, Ho, ⟨%d0, H0⟩, ⟨%d1, H1⟩, ⟨%d2, H2⟩⟩
      iapply (run2_first c (grid2.coords t) _ _ _ _ _ _ _ _ hc0 hc1 (blk2 V c 0 t) (blk2 V c 1 t) ((dat2 V c).before 2 t d2) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS, Hoth⟩, Hg⟩, Ho, ⟨%d0, H0⟩, ⟨%d1, H1⟩, ⟨%d2, H2⟩⟩
      iapply (run2_first c (grid2.coords t) _ _ _ _ _ _ _ _ hc0 hc1 (blk2 V c 0 t) (blk2 V c 1 t) ((dat2 V c).before 2 t d2) Set.univ _)
      isplitl [H0]; · iexact H0
      isplitl [H1]; · iexact H1
      isplitl [H2]; · iexact H2
      isplitl [HS]; · iexists _; iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2
  · have hz : t.val ≠ 0 := fun h => h0 (by rw [h])
    have hc0 : ¬first2 (grid2.coords t) := fun h => h0 ((first2_iff t).mp h)
    rw [acc2_next V c t h0, PhiS2_castSucc V c t, PhiS2_pos V c _ _ hz]
    by_cases h1 : t.val % 8 = 7
    · have hc1 : last2 (grid2.coords t) := (last2_iff t).mpr h1
      rw [show (dat2 V c).leavesExact 2 t = owns (c : Thread nD τ) (ms2_2 t) fullShare ((dat2 V c).after 2 t) from by
        unfold Dat.leavesExact; rw [live2_2 t hc1], after2_2, acc2_next V c t h0]
      iintro ⟨⟨⟨HS, Hoth⟩, Hg⟩, Ho, ⟨%d0, H0⟩, ⟨%d1, H1⟩, ⟨%d2, H2⟩⟩
      iapply (run2_last c (grid2.coords t) _ _ _ _ _ _ _ _ hc0 hc1 (blk2 V c 0 t) (blk2 V c 1 t) (acc2 V c (t.val - 1) _) Set.univ _)
      isplitl [H0]; · iexact H0
      isplitl [H1]; · iexact H1
      isplitl [H2]; · iexists _; iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexact H2
    · have hc1 : ¬last2 (grid2.coords t) := fun h => h1 ((last2_iff t).mp h)
      rw [Dat.leavesExact_idle (dat2 V c) 2 t (idle2_2 t hc1) (noFlush2_2 t hc1)]
      iintro ⟨⟨⟨HS, Hoth⟩, Hg⟩, Ho, ⟨%d0, H0⟩, ⟨%d1, H1⟩, ⟨%d2, H2⟩⟩
      iapply (run2_mid c (grid2.coords t) _ _ _ _ _ _ _ _ hc0 hc1 (blk2 V c 0 t) (blk2 V c 1 t) ((dat2 V c).before 2 t d2) (acc2 V c (t.val - 1) _) Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The body obligation of the region, at every point. -/
theorem body_obligation2 (c : Dev nD) : BodyObligation (dat2 (F := F) V c) (defs₀ (F := F)) Variants.none () Set.univ := fun t => by
  rw [bigSep_W2, bigSep_W2]
  exact sound_body2 V c t

/-- What the region hands over is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the same back, the accumulator's contents forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS, Hoth⟩, Hg⟩
  isplitl [HS Hoth]
  · isplitl [HS]
    · iexists _; iexact HS
    iexact Hoth
  iexact Hg

end Cert.KernelIdeal.Hand

end
-- ==== Proof.KI.Run.lean ====
/-
  The run of the idealized kernel program: seven segments from the launch to the return — a stretch of
  host operations, the first blocked product, a stretch, the second product, a stretch, the third product,
  and the closing stretch that forms the weighted sum.  The buffers' contents at each segment boundary are
  written as a fold from the launch memory: a host stretch rewrites the buffers its operations write, a
  blocked product rewrites its three windowed arrays (the two inputs stay, the output ends at what the
  write-backs of the grid's points leave).  The run theorem reads every unscoped buffer's final contents
  off the last boundary of that fold.
-/
import proofs.«134114_j48223892800206_1_alg».proof.Proof.KI.Body0
import proofs.«134114_j48223892800206_1_alg».proof.Proof.KI.Body1
import proofs.«134114_j48223892800206_1_alg».proof.Proof.KI.Body2
import proofs.«134114_j48223892800206_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)
/-- After the host stretch before product 0: what product 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- After product 0: its three arrays at what the pipeline leaves (the inputs as entered, the output at the
    write-backs folded over the grid), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before product 1: what product 1 is entered from. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- After product 1: its three arrays at what the pipeline leaves (the inputs as entered, the output at the
    write-backs folded over the grid), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before product 2: what product 2 is entered from. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- After product 2: its three arrays at what the pipeline leaves (the inputs as entered, the output at the
    write-backs folded over the grid), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the closing host stretch: the contents the run ends at. -/
abbrev W7 : Dev nD → Valuation τ sig (Elt F) := fun c => StableHlo.after hostOps3 (W6 m ρ c)

/-! ## The proof data family and the thread state -/

/-- The prefetched tables' admissible contents: no product has a table. -/
abbrev adm : (p : Fin 3) → (pcfgs (F := F) p).Adm := fun p => (cfgs p).toPCfg_adm
/-- Every product's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and the
    core owing nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends
    at those references holding what the stretch's operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing part: every unscoped buffer at the last boundary's contents, the
    generator register at some state. -/
abbrev Tₙ (c : Dev nD) : sProp 𝕄 := iprop(StableHlo.held (c : Thread nD τ) (Pipeline.ucRefs τ sig) (W7 m ρ c) ∗ ∃ r, prngReg c r)

/-! ## The products as segments -/

set_option backward.isDefEq.respectTransparency.types false in
/-- Product 0 over the thread state: entered from every unscoped buffer at W1, left at W2.  Its three
    arrays are split out of the unscoped buffers and put back at the exit contents; the generator register and
    the scoped buffers no window stages (the accumulator among them) go into the invariant before the first
    point and come back out of it after the last, the accumulator's contents forgotten; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 1 over the thread state: entered from every unscoped buffer at W3, left at W4.  Its three
    arrays are split out of the unscoped buffers and put back at the exit contents; the generator register and
    the scoped buffers no window stages (the accumulator among them) go into the invariant before the first
    point and come back out of it after the last, the accumulator's contents forgotten; nothing owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Product 2 over the thread state: entered from every unscoped buffer at W5, left at W6.  Its three
    arrays are split out of the unscoped buffers and put back at the exit contents; the generator register and
    the scoped buffers no window stages (the accumulator among them) go into the invariant before the first
    point and come back out of it after the last, the accumulator's contents forgotten; nothing owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order: a host segment per stretch from its boundary's contents, a region
    per blocked product. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- The program is the run of its segments. -/
theorem main_run (c : Dev nD) : main (F := F) c = Pipeline.Seg.run (segs m ρ) :=
  main_segs adm (pdats m ρ) () 𝒱₀ L lv _ _ _ _ (reg0 m ρ) (reg1 m ρ) (reg2 m ρ) rfl rfl rfl rfl c

set_option backward.isDefEq.respectTransparency.types false in
/-- THE RUN.  From any memory with zero counters every weakly fair execution of the program on the TensorCores
    terminates, nothing faulting, and in every final state each unscoped buffer of each core holds what the
    fold of the seven segments leaves in it. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h => h)

/-! ## What the fold leaves in the buffers the proof of the values reads -/

/-- The first product is entered with both its input arrays as launched. -/
theorem V1_arg0 (c : Dev nD) : V1 m ρ c main_arg0 = m ((c : Thread nD τ).loc main_arg0) :=
  StableHlo.after_of_writes_sub hostOps0 _ hostOps0_writes (by decide)
theorem V1_arg1 (c : Dev nD) : V1 m ρ c main_arg1 = m ((c : Thread nD τ).loc main_arg1) :=
  StableHlo.after_of_writes_sub hostOps0 _ hostOps0_writes (by decide)
/-- The second product is entered with the matrix as launched and the first product's output as its vector
    input. -/
theorem V3_arg1 (c : Dev nD) : V3 m ρ c main_arg1 = m ((c : Thread nD τ).loc main_arg1) :=
  (StableHlo.after_of_writes_sub hostOps1 _ hostOps1_writes (by decide)).trans <|
    (W2_arr m ρ c 0).trans <| ((dat0 (V1 m ρ) c).arrAt_in 0 rfl _).trans <| (A_eq0 (V1 m ρ) c 0).trans (V1_arg1 m ρ c)
theorem V3_v4 (c : Dev nD) : V3 m ρ c main_v4 = (dat0 (V1 m ρ) c).arrAt 2 cfg0.N :=
  (StableHlo.after_of_writes_sub hostOps1 _ hostOps1_writes (by decide)).trans (W2_arr m ρ c 2)
/-- The third product is entered with the matrix as launched and the second product's output as its vector
    input. -/
theorem V5_arg1 (c : Dev nD) : V5 m ρ c main_arg1 = m ((c : Thread nD τ).loc main_arg1) :=
  (StableHlo.after_of_writes_sub hostOps2 _ hostOps2_writes (by decide)).trans <|
    (W4_arr m ρ c 0).trans <| ((dat1 (V3 m ρ) c).arrAt_in 0 rfl _).trans <| (A_eq1 (V3 m ρ) c 0).trans (V3_arg1 m ρ c)
theorem V5_v10 (c : Dev nD) : V5 m ρ c main_v10 = (dat1 (V3 m ρ) c).arrAt 2 cfg1.N :=
  (StableHlo.after_of_writes_sub hostOps2 _ hostOps2_writes (by decide)).trans (W4_arr m ρ c 2)

/-! ### The arguments end as launched: no host operation writes one, and a product reads it through an input
    window or not at all -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 1).trans (((dat0 (V1 m ρ) c).arrAt_in 1 rfl _).trans (A_eq0 (V1 m ρ) c 1))
    _ = m ((c : Thread nD τ).loc main_arg0) := V1_arg0 m ρ c

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := (W6_arr m ρ c 0).trans (((dat2 (V5 m ρ) c).arrAt_in 0 rfl _).trans (A_eq2 (V5 m ρ) c 0))
    _ = m ((c : Thread nD τ).loc main_arg1) := V5_arg1 m ρ c

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- THE FRAME: the program runs, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩) (run_all m ρ)

/-! ## The weighted sum the closing stretch leaves in the result buffer

Each host stretch slices one coefficient out of the coefficient vector, spreads it over the result's shape,
multiplies it into the latest product's output (the first stretch: into the launched vector itself) and adds the
running sum.  Reading the fold stretch by stretch: the coefficient vector is never written, so every stretch
slices the launched one; a product changes only its own output array, so the running sum passes through it. -/

theorem W2_main_arg2 (c : Dev nD) : W2 m ρ c (Proc.devRef .tc main_arg2) = m ((c : Thread nD τ).loc main_arg2) :=
  (W2_of_ne m ρ c main_arg2 (by decide)).trans <|
    (StableHlo.after_of_writes_sub hostOps0 _ hostOps0_writes (by decide)).trans rfl
theorem W4_main_arg2 (c : Dev nD) : W4 m ρ c (Proc.devRef .tc main_arg2) = m ((c : Thread nD τ).loc main_arg2) :=
  (W4_of_ne m ρ c main_arg2 (by decide)).trans <|
    (StableHlo.after_of_writes_sub hostOps1 _ hostOps1_writes (by decide)).trans (W2_main_arg2 m ρ c)
theorem W6_main_arg2 (c : Dev nD) : W6 m ρ c (Proc.devRef .tc main_arg2) = m ((c : Thread nD τ).loc main_arg2) :=
  (W6_of_ne m ρ c main_arg2 (by decide)).trans <|
    (StableHlo.after_of_writes_sub hostOps2 _ hostOps2_writes (by decide)).trans (W4_main_arg2 m ρ c)
/-- Each product's output array, as the product leaves it. -/
theorem W2_v4 (c : Dev nD) : W2 m ρ c (Proc.devRef .tc main_v4) = (dat0 (V1 m ρ) c).arrAt 2 cfg0.N := W2_arr m ρ c 2
theorem W4_v10 (c : Dev nD) : W4 m ρ c (Proc.devRef .tc main_v10) = (dat1 (V3 m ρ) c).arrAt 2 cfg1.N := W4_arr m ρ c 2
theorem W6_v16 (c : Dev nD) : W6 m ρ c (Proc.devRef .tc main_v16) = (dat2 (V5 m ρ) c).arrAt 2 cfg2.N := W6_arr m ρ c 2

/-- After the first stretch: the first coefficient times the launched vector. -/
theorem W1_v3 (c : Dev nD) : W1 m ρ c (Proc.devRef .tc main_v3) = (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) := by
  show StableHlo.after hostOps0 (W0 m ρ c) (Proc.devRef .tc main_v3) = _
  after_results
  rfl

/-- After the second stretch: that plus the second coefficient times the first product. -/
theorem W3_v9 (c : Dev nD) : W3 m ρ c (Proc.devRef .tc main_v9) = (addf (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) (mulf (broadcastInDim S8192x128 ![] bcast_S_S8192x128 (shapeCast _ (extractStridedSlice S1 ![1] (m ((c : Thread nD τ).loc main_arg2)) slices_S4_S1_1) shapeCasts_S1_S_)) ((dat0 (V1 m ρ) c).arrAt 2 cfg0.N))) := by
  show StableHlo.after hostOps1 (W2 m ρ c) (Proc.devRef .tc main_v9) = _
  after_results
  rw [W2_of_ne m ρ c main_v3 (by decide), W1_v3, W2_main_arg2, W2_v4]
  rfl

/-- After the third stretch: that plus the third coefficient times the second product. -/
theorem W5_v15 (c : Dev nD) : W5 m ρ c (Proc.devRef .tc main_v15) = (addf (addf (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) (mulf (broadcastInDim S8192x128 ![] bcast_S_S8192x128 (shapeCast _ (extractStridedSlice S1 ![1] (m ((c : Thread nD τ).loc main_arg2)) slices_S4_S1_1) shapeCasts_S1_S_)) ((dat0 (V1 m ρ) c).arrAt 2 cfg0.N))) (mulf (broadcastInDim S8192x128 ![] bcast_S_S8192x128 (shapeCast _ (extractStridedSlice S1 ![2] (m ((c : Thread nD τ).loc main_arg2)) slices_S4_S1_2) shapeCasts_S1_S_)) ((dat1 (V3 m ρ) c).arrAt 2 cfg1.N))) := by
  show StableHlo.after hostOps2 (W4 m ρ c) (Proc.devRef .tc main_v15) = _
  after_results
  rw [W4_of_ne m ρ c main_v9 (by decide), W3_v9, W4_main_arg2, W4_v10]
  rfl

/-- THE RESULT: the closing stretch leaves the sum of the four coefficients times the launched vector and the
    three products' outputs. -/
theorem W7_v21 (c : Dev nD) : W7 m ρ c (Proc.devRef .tc main_v21) = (addf (addf (addf (mulf (broadcastInDim S8192x128 ![] bcast_S_S8192x128 (shapeCast _ (extractStridedSlice S1 ![0] (m ((c : Thread nD τ).loc main_arg2)) slices_S4_S1_0) shapeCasts_S1_S_)) (m ((c : Thread nD τ).loc main_arg0))) (mulf (broadcastInDim S8192x128 ![] bcast_S_S8192x128 (shapeCast _ (extractStridedSlice S1 ![1] (m ((c : Thread nD τ).loc main_arg2)) slices_S4_S1_1) shapeCasts_S1_S_)) ((dat0 (V1 m ρ) c).arrAt 2 cfg0.N))) (mulf (broadcastInDim S8192x128 ![] bcast_S_S8192x128 (shapeCast _ (extractStridedSlice S1 ![2] (m ((c : Thread nD τ).loc main_arg2)) slices_S4_S1_2) shapeCasts_S1_S_)) ((dat1 (V3 m ρ) c).arrAt 2 cfg1.N))) (mulf (broadcastInDim S8192x128 ![] bcast_S_S8192x128 (shapeCast _ (extractStridedSlice S1 ![3] (m ((c : Thread nD τ).loc main_arg2)) slices_S4_S1_3) shapeCasts_S1_S_)) ((dat2 (V5 m ρ) c).arrAt 2 cfg2.N))) := by
  show StableHlo.after hostOps3 (W6 m ρ c) (Proc.devRef .tc main_v21) = _
  after_results
  rw [W6_of_ne m ρ c main_v15 (by decide), W5_v15, W6_main_arg2, W6_v16]
  rfl

end Cert.KernelIdeal.Hand

end
-- ==== Proof.Val.Pay.lean ====
import proofs.«134114_j48223892800206_1_alg».proof.Proof.Gen.KernelIdeal.Skeleton
import Idealize.ShloMosaic.Lib.Pipeline.Value
import Idealize.ShloMosaic.Lib.ValueIdx
import Idealize.ShloMosaic.PureOps.Ideal.Laws

/-!
# The kernels' payloads at an index

Each of the three block kernels stores two values into its accumulator block: the zero block (at the first column
block) and the accumulator plus the product of a 2048 × 1024 block with a 1024 × 128 block. On the extended reals the
bf16 casts around the product are the identity, so the second is, at row p and column q,
a(p, q) + ∑ over kk < 1024 of x0(p, kk) · x1(kk, q).
-/

noncomputable section

namespace Cert.KernelIdeal.Val

open Idealize.ShloMosaic Idealize.ShloMosaic.ValueIdx Cert.KernelIdeal Cert.KernelIdeal.Gen

/-- The left operand's index at output (i0, i1) and contraction position k has row i0 … -/
theorem lhs_row (i : S2048x128.Idx) (k : dot_S2048x1024_S1024x128_S2048x128_1_0_0_1_n_n.contr.Idx) :
    (dot_S2048x1024_S1024x128_S2048x128_1_0_0_1_n_n.lhsIdx i k 0).val = (i 0).val := by
  unfold DotDims.lhsIdx
  rw [dif_neg (show ¬(0 : Fin S2048x1024.rank) ∈ dot_S2048x1024_S1024x128_S2048x128_1_0_0_1_n_n.lhsBatch by decide),
    dif_pos (show (0 : Fin S2048x1024.rank) ∈ dot_S2048x1024_S1024x128_S2048x128_1_0_0_1_n_n.lhsNonContracting by decide)]
  rfl
/-- … and column the contraction position; -/
theorem lhs_col (i : S2048x128.Idx) (k : dot_S2048x1024_S1024x128_S2048x128_1_0_0_1_n_n.contr.Idx) :
    (dot_S2048x1024_S1024x128_S2048x128_1_0_0_1_n_n.lhsIdx i k 1).val = (k ⟨0, by decide⟩).val :=
  dot_S2048x1024_S1024x128_S2048x128_1_0_0_1_n_n.lhsIdx_val_of_single rfl i k
/-- the right operand's has row the contraction position … -/
theorem rhs_row (i : S2048x128.Idx) (k : dot_S2048x1024_S1024x128_S2048x128_1_0_0_1_n_n.contr.Idx) :
    (dot_S2048x1024_S1024x128_S2048x128_1_0_0_1_n_n.rhsIdx i k 0).val = (k ⟨0, by decide⟩).val :=
  dot_S2048x1024_S1024x128_S2048x128_1_0_0_1_n_n.rhsIdx_val_of_single rfl i k
/-- … and column i1. -/
theorem rhs_col (i : S2048x128.Idx) (k : dot_S2048x1024_S1024x128_S2048x128_1_0_0_1_n_n.contr.Idx) :
    (dot_S2048x1024_S1024x128_S2048x128_1_0_0_1_n_n.rhsIdx i k 1).val = (i 1).val := by
  unfold DotDims.rhsIdx
  rw [dif_neg (show ¬(1 : Fin S1024x128.rank) ∈ dot_S2048x1024_S1024x128_S2048x128_1_0_0_1_n_n.rhsBatch by decide),
    dif_pos (show (1 : Fin S1024x128.rank) ∈ dot_S2048x1024_S1024x128_S2048x128_1_0_0_1_n_n.rhsNonContracting by decide)]
  rfl

/-- The block product into the zero block, at (p, q): the sum over the 1024 contraction positions of the products. -/
theorem blockProd_apply (l : FVec Ideal S2048x1024 .bf16) (r : FVec Ideal S1024x128 .bf16) (p : Fin 2048) (q : Fin 128) :
    matmul dot_S2048x1024_S1024x128_S2048x128_1_0_0_1_n_n none l r (constant (F := Ideal) S2048x128 .f32 0x00000000#32) (ix2 p q)
      = ∑ kk : Fin 1024, l (ix2 p kk) * r (ix2 kk q) := by
  simp only [matmul]
  rw [Ideal.matmul_constant_zero_apply,
    ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p q) ((ValueIdx.contrEquiv1 dot_S2048x1024_S1024x128_S2048x128_1_0_0_1_n_n 1024 rfl rfl).symm k) = ix2 p k :=
    funext fun a => Fin.ext (by
      match a with
      | ⟨0, _⟩ => exact lhs_row _ _
      | ⟨1, _⟩ => exact (lhs_col _ _).trans hk)
  have er : dot_S2048x1024_S1024x128_S2048x128_1_0_0_1_n_n.rhsIdx (ix2 p q) ((ValueIdx.contrEquiv1 dot_S2048x1024_S1024x128_S2048x128_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- The zeroing payload of kernel 0 is the zero block. -/
theorem pay0_zero (j : S2048x128.Idx) : (k0_pay1 (F := Ideal)) j = (0 : EReal) := by
  unfold k0_pay1
  simp only [shapeCast_self]
  exact Ideal.ofBits_zero_f32

/-- The accumulating payload of kernel 0 at (p, q): the accumulator there plus the block product's sum over the
    1024 contraction positions. -/
theorem pay0_apply (x0 : Vec Ideal S2048x1024 .f32) (x1 : Vec Ideal S1024x128 .f32) (a : Vec Ideal S2048x128 .f32)
    (p : Fin 2048) (q : Fin 128) :
    k0_pay2 x0 x1 a (ix2 p q) = a (ix2 p q) + ∑ kk : Fin 1024, x0 (ix2 p kk) * x1 (ix2 kk q) := by
  unfold k0_pay2
  simp only [shapeCast_self, addf_apply]
  rw [blockProd_apply]
  simp only [truncf_apply]

/-- The zeroing payload of kernel 1 is the zero block. -/
theorem pay1_zero (j : S2048x128.Idx) : (k1_pay1 (F := Ideal)) j = (0 : EReal) := by
  unfold k1_pay1
  simp only [shapeCast_self]
  exact Ideal.ofBits_zero_f32

/-- The accumulating payload of kernel 1 at (p, q): the accumulator there plus the block product's sum over the
    1024 contraction positions. -/
theorem pay1_apply (x0 : Vec Ideal S2048x1024 .f32) (x1 : Vec Ideal S1024x128 .f32) (a : Vec Ideal S2048x128 .f32)
    (p : Fin 2048) (q : Fin 128) :
    k1_pay2 x0 x1 a (ix2 p q) = a (ix2 p q) + ∑ kk : Fin 1024, x0 (ix2 p kk) * x1 (ix2 kk q) := by
  unfold k1_pay2
  simp only [shapeCast_self, addf_apply]
  rw [blockProd_apply]
  simp only [truncf_apply]

/-- The zeroing payload of kernel 2 is the zero block. -/
theorem pay2_zero (j : S2048x128.Idx) : (k2_pay1 (F := Ideal)) j = (0 : EReal) := by
  unfold k2_pay1
  simp only [shapeCast_self]
  exact Ideal.ofBits_zero_f32

/-- The accumulating payload of kernel 2 at (p, q): the accumulator there plus the block product's sum over the
    1024 contraction positions. -/
theorem pay2_apply (x0 : Vec Ideal S2048x1024 .f32) (x1 : Vec Ideal S1024x128 .f32) (a : Vec Ideal S2048x128 .f32)
    (p : Fin 2048) (q : Fin 128) :
    k2_pay2 x0 x1 a (ix2 p q) = a (ix2 p q) + ∑ kk : Fin 1024, x0 (ix2 p kk) * x1 (ix2 kk q) := by
  unfold k2_pay2
  simp only [shapeCast_self, addf_apply]
  rw [blockProd_apply]
  simp only [truncf_apply]

end Cert.KernelIdeal.Val
-- ==== Proof.Val.OutLib.lean ====
import Idealize.ShloMosaic.Lib.ValueIdx
import Mathlib.Algebra.BigOperators.Fin
import Mathlib.Algebra.BigOperators.Intervals

/-!
# A row of a product, cut into consecutive runs of positions

The product of an 8192 × 8192 array A with an 8192 × 128 array B has at (r, q) the sum over the 8192 positions k of
A(r, k) · B(k, q). Here the summand is written as a function of three natural numbers (zero outside the arrays), so
that a sum over the positions below a bound splits into the sum below a smaller bound plus a run of consecutive
positions: the shape in which a column-blocked product accumulates it.
-/

noncomputable section

namespace Cert.KernelIdeal.Val

open Idealize.ShloMosaic Idealize.ShloMosaic.ValueIdx

/-- The summand A(r, k) · B(k, q) of the product at (r, q), position k; zero when a coordinate is outside the arrays. -/
def term (A : (⟨2, ![8192, 8192]⟩ : Shape).Idx → EReal) (B : (⟨2, ![8192, 128]⟩ : Shape).Idx → EReal) (r q k : ℕ) : EReal :=
  if h : r < 8192 ∧ q < 128 ∧ k < 8192 then A (ix2 ⟨r, h.1⟩ ⟨k, h.2.2⟩) * B (ix2 ⟨k, h.2.2⟩ ⟨q, h.2.1⟩) else 0

/-- Inside the arrays the summand is the product of the two entries, however the entries' indices are written. -/
theorem term_eq (A : (⟨2, ![8192, 8192]⟩ : Shape).Idx → EReal) (B : (⟨2, ![8192, 128]⟩ : Shape).Idx → EReal) (r q k : ℕ)
    (i : (⟨2, ![8192, 8192]⟩ : Shape).Idx) (j : (⟨2, ![8192, 128]⟩ : Shape).Idx)
    (hi0 : (i 0).val = r) (hi1 : (i 1).val = k) (hj0 : (j 0).val = k) (hj1 : (j 1).val = q) :
    term A B r q k = A i * B j := by
  have h : r < 8192 ∧ q < 128 ∧ k < 8192 := ⟨hi0 ▸ idx2_lt0 i, hj1 ▸ idx2_lt1 j, hi1 ▸ idx2_lt1 i⟩
  unfold term
  rw [dif_pos h]
  have ei : ix2 (⟨r, h.1⟩ : Fin 8192) (⟨k, h.2.2⟩ : Fin 8192) = i :=
    funext fun a => Fin.ext (by match a with | ⟨0, _⟩ => exact hi0.symm | ⟨1, _⟩ => exact hi1.symm)
  have ej : ix2 (⟨k, h.2.2⟩ : Fin 8192) (⟨q, h.2.1⟩ : Fin 128) = j :=
    funext fun a => Fin.ext (by match a with | ⟨0, _⟩ => exact hj0.symm | ⟨1, _⟩ => exact hj1.symm)
  rw [ei, ej]

/-- The product of the two arrays: at (r, q) the sum of the summands over all 8192 positions. -/
def prodArr (A : (⟨2, ![8192, 8192]⟩ : Shape).Idx → EReal) (B : (⟨2, ![8192, 128]⟩ : Shape).Idx → EReal) :
    (⟨2, ![8192, 128]⟩ : Shape).Idx → EReal :=
  fun j => ∑ k ∈ Finset.range 8192, term A B (j 0).val (j 1).val k

/-- The product at an index whose coordinates are r and q. -/
theorem prodArr_at (A : (⟨2, ![8192, 8192]⟩ : Shape).Idx → EReal) (B : (⟨2, ![8192, 128]⟩ : Shape).Idx → EReal)
    (j : (⟨2, ![8192, 128]⟩ : Shape).Idx) (r q : ℕ) (h0 : (j 0).val = r) (h1 : (j 1).val = q) :
    prodArr A B j = ∑ k ∈ Finset.range 8192, term A B r q k := by
  unfold prodArr; rw [h0, h1]

/-- The product at (r, q) is the sum over the positions k of A(r, k) · B(k, q). -/
theorem prodArr_apply (A : (⟨2, ![8192, 8192]⟩ : Shape).Idx → EReal) (B : (⟨2, ![8192, 128]⟩ : Shape).Idx → EReal)
    (r : Fin 8192) (q : Fin 128) : prodArr A B (ix2 r q) = ∑ k : Fin 8192, A (ix2 r k) * B (ix2 k q) := by
  rw [prodArr_at A B (ix2 r q) r.val q.val rfl rfl, ← Fin.sum_univ_eq_sum_range (fun k => term A B r.val q.val k) 8192]
  exact Finset.sum_congr rfl fun k _ => term_eq A B r.val q.val k.val (ix2 r k) (ix2 k q) rfl rfl rfl rfl

/-- The positions below (j + 1) · 1024 are those below j · 1024 followed by the run of 1024 positions from j · 1024:
    the sum of the summands splits accordingly, the run written as a sum over its 1024 offsets. -/
theorem sum_term_block (A : (⟨2, ![8192, 8192]⟩ : Shape).Idx → EReal) (B : (⟨2, ![8192, 128]⟩ : Shape).Idx → EReal)
    (r q j : ℕ) :
    ∑ k ∈ Finset.range ((j + 1) * 1024), term A B r q k
      = ∑ k ∈ Finset.range (j * 1024), term A B r q k + ∑ kk : Fin 1024, term A B r q (j * 1024 + kk.val) := by
  rw [Nat.succ_mul, Finset.sum_range_add, Fin.sum_univ_eq_sum_range (fun kk => term A B r q (j * 1024 + kk)) 1024]

end Cert.KernelIdeal.Val

end
-- ==== Proof.Val.Out0.lean ====
import proofs.«134114_j48223892800206_1_alg».proof.Proof.KI.Body0
import proofs.«134114_j48223892800206_1_alg».proof.Proof.Val.Pay
import proofs.«134114_j48223892800206_1_alg».proof.Proof.Val.OutLib
import Idealize.ShloMosaic.Lib.Pipeline.Value
import Idealize.ShloMosaic.Lib.ValueIdx

/-!
# The output array of the blocked product number 0, read off its blocks

The grid has 4 row blocks by 8 column blocks; point t works on row block t / 8 and column block t % 8. After the
point the accumulator holds, at row p and column q of the block, the sum of S(row, k) · Z(k, q) over the positions k of
the column blocks 0 … t % 8, where row = (t / 8) · 2048 + p. At the last column block that is the whole sum over the
8192 positions, and it is what the point writes back to rows (t / 8) · 2048 … of the output; the four such blocks
cover the output array, which therefore ends holding the product S · Z.
-/

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices of the three windows at point t: S at (t / 8, t % 8), Z at (t % 8, 0), the output at (t / 8, 0). -/
theorem idx0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0)

/-- The S block at point t reads S at row (t / 8) · 2048 + p and column (t % 8) · 1024 + kk. -/
theorem blkS0 (c : Dev nD) (t : Fin cfg0.N) (p : Fin 2048) (kk : Fin 1024) (i : S8192x8192.Idx)
    (h0 : (i 0).val = t.val / 8 * 2048 + p.val) (h1 : (i 1).val = t.val % 8 * 1024 + kk.val) :
    (blk0 V c 0 t : Vec Ideal S2048x1024 .f32) (ix2 p kk) = (V c main_arg1 : S8192x8192.Idx → EReal) i := by
  obtain ⟨e0, e1, -⟩ := idx0 t
  unfold blk0
  rw [View.read_apply]
  show V c main_arg1 _ = V c main_arg1 _
  congr 1
  funext a
  apply Fin.ext
  match a with
  | ⟨0, _⟩ => show win0_0.index t (0 : Fin 2) * 2048 + 1 * p.val = (i 0).val; rw [e0, h0]; omega
  | ⟨1, _⟩ => show win0_0.index t (1 : Fin 2) * 1024 + 1 * kk.val = (i 1).val; rw [e1, h1]; omega

/-- The Z block at point t reads Z at row (t % 8) · 1024 + kk and column q. -/
theorem blkZ0 (c : Dev nD) (t : Fin cfg0.N) (kk : Fin 1024) (q : Fin 128) (j : S8192x128.Idx)
    (h0 : (j 0).val = t.val % 8 * 1024 + kk.val) (h1 : (j 1).val = q.val) :
    (blk0 V c 1 t : Vec Ideal S1024x128 .f32) (ix2 kk q) = (V c main_arg0 : S8192x128.Idx → EReal) j := by
  obtain ⟨-, -, e2, e3, -⟩ := idx0 t
  unfold blk0
  rw [View.read_apply]
  show V c main_arg0 _ = V c main_arg0 _
  congr 1
  funext a
  apply Fin.ext
  match a with
  | ⟨0, _⟩ => show win0_1.index t (0 : Fin 2) * 1024 + 1 * kk.val = (j 0).val; rw [e2, h0]; omega
  | ⟨1, _⟩ => show win0_1.index t (1 : Fin 2) * 128 + 1 * q.val = (j 1).val; rw [e3, h1]; omega

/-- One point's step at (p, q): the accumulator's entry plus the summands of the point's run of 1024 positions. -/
theorem step0 (c : Dev nD) (n : ℕ) (hn : n < cfg0.N) (a : Vec Ideal S2048x128 .f32) (p : Fin 2048) (q : Fin 128) :
    k0_pay2 (blk0 V c 0 ⟨n, hn⟩) (blk0 V c 1 ⟨n, hn⟩) a (ix2 p q)
      = a (ix2 p q) + ∑ kk : Fin 1024, term (V c main_arg1) (V c main_arg0) (n / 8 * 2048 + p.val) q.val (n % 8 * 1024 + kk.val) := by
  have hN : n < 32 := lt_of_lt_of_eq hn N_0
  refine (pay0_apply (blk0 V c 0 ⟨n, hn⟩) (blk0 V c 1 ⟨n, hn⟩) a p q).trans ?_
  congr 1
  refine Finset.sum_congr rfl fun kk _ => ?_
  have hkk : kk.val < 1024 := kk.isLt
  have hp : p.val < 2048 := p.isLt
  exact (congrArg₂ (fun x y : EReal => x * y)
      (blkS0 V c ⟨n, hn⟩ p kk (ix2 ⟨n / 8 * 2048 + p.val, by omega⟩ ⟨n % 8 * 1024 + kk.val, by omega⟩) rfl rfl)
      (blkZ0 V c ⟨n, hn⟩ kk q (ix2 ⟨n % 8 * 1024 + kk.val, by omega⟩ q) rfl rfl)).trans
    (term_eq (V c main_arg1) (V c main_arg0) _ _ _ _ _ rfl rfl rfl rfl).symm

/-- At the first column block the accumulator starts from the zero block. -/
theorem acc0_apply_first (c : Dev nD) (n : ℕ) (hn : n < cfg0.N) (h : n % 8 = 0) (p : Fin 2048) (q : Fin 128) :
    acc0 V c n hn (ix2 p q)
      = ∑ k ∈ Finset.range ((n % 8 + 1) * 1024), term (V c main_arg1) (V c main_arg0) (n / 8 * 2048 + p.val) q.val k := by
  refine (congrFun (acc0_first V c ⟨n, hn⟩ h) (ix2 p q)).trans ?_
  refine (step0 V c n hn (k0_pay1 (F := Ideal)) p q).trans ?_
  rw [sum_term_block, pay0_zero, h, Nat.zero_mul, Finset.range_zero, Finset.sum_empty]

/-- After the point at position n the accumulator holds, at (p, q), the sum over the positions of the column
    blocks 0 … n % 8 of the summands of row (n / 8) · 2048 + p: by induction on the position. -/
theorem acc0_apply (c : Dev nD) : ∀ (n : ℕ) (hn : n < cfg0.N) (p : Fin 2048) (q : Fin 128),
    acc0 V c n hn (ix2 p q)
      = ∑ k ∈ Finset.range ((n % 8 + 1) * 1024), term (V c main_arg1) (V c main_arg0) (n / 8 * 2048 + p.val) q.val k := by
  intro n
  induction n with
  | zero => exact fun hn p q => acc0_apply_first V c 0 hn rfl p q
  | succ m ih =>
    intro hn p q
    by_cases h : (m + 1) % 8 = 0
    · exact acc0_apply_first V c (m + 1) hn h p q
    · refine (congrFun (acc0_next V c ⟨m + 1, hn⟩ h) (ix2 p q)).trans ?_
      refine (step0 V c (m + 1) hn (acc0 V c m (Nat.lt_of_succ_lt hn)) p q).trans ?_
      have e1 : m % 8 + 1 = (m + 1) % 8 := by omega
      have e2 : m / 8 = (m + 1) / 8 := by omega
      rw [sum_term_block, ih (Nat.lt_of_succ_lt hn) p q, e1, e2]

/-- What a point at the last column block writes back is its block of the product of S and Z. -/
theorem flushed0_eq (c : Dev nD) (t : Fin cfg0.N) (ht : t.val % 8 = 7) :
    (dat0 V c).flushed 2 t = ((cfg0.win 2).blk t).view.read (Elt Ideal) (prodArr (V c main_arg1) (V c main_arg0)) := by
  show (cfg0.win 2).cut (grid0.coords t) ((dat0 V c).after 2 t) = _
  rw [after0_2]
  obtain ⟨-, -, -, -, e4, e5⟩ := idx0 t
  funext j
  obtain ⟨p, q, rfl⟩ : ∃ (p : Fin 2048) (q : Fin 128), j = ix2 p q := ⟨j 0, j 1, eq_ix2 j⟩
  rw [View.read_apply]
  show acc0 V c t.val t.isLt (ix2 p q) = prodArr (V c main_arg1) (V c main_arg0) (((cfg0.win 2).blk t).view.emb (ix2 p q))
  rw [acc0_apply V c t.val t.isLt p q, ht]
  refine (prodArr_at _ _ _ _ _ ?_ ?_).symm
  · show win0_2.index t (0 : Fin 2) * 2048 + 1 * p.val = _; rw [e4]; omega
  · show win0_2.index t (1 : Fin 2) * 128 + 1 * q.val = _; rw [e5]; omega

/-- An index of the output array is in point t's block iff each coordinate is in the block's range on its axis. -/
theorem mem_blk0 (t : Fin cfg0.N) (i : S8192x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v4).slice (win0_2.rect t)).set ↔ _
  rw [View.set_slice_whole, Rect.mem_set_unit]
  exact Iff.rfl

/-- Row r of the output is in the block written back at the last column block of row block r / 2048. -/
theorem cover0 (i : S8192x128.Idx) : ∃ t : Fin cfg0.N, (cfg0.win 2).flush t = true ∧ i ∈ ((cfg0.win 2).blk t).view.set := by
  have hi0 : (i 0).val < 8192 := idx2_lt0 i
  have hi1 : (i 1).val < 128 := idx2_lt1 i
  obtain ⟨t, ht⟩ : ∃ t : Fin cfg0.N, t.val = (i 0).val / 2048 * 8 + 7 :=
    ⟨⟨(i 0).val / 2048 * 8 + 7, lt_of_lt_of_eq (by omega) N_0.symm⟩, rfl⟩
  obtain ⟨-, -, -, -, e4, e5⟩ := idx0 t
  refine ⟨t, (flush0_2 t).mpr (by omega), ?_⟩
  rw [mem_blk0]
  intro a
  match a with
  | ⟨0, _⟩ => show win0_2.index t (0 : Fin 2) * 2048 ≤ (i 0).val ∧ (i 0).val < win0_2.index t (0 : Fin 2) * 2048 + 2048; rw [e4]; omega
  | ⟨1, _⟩ => show win0_2.index t (1 : Fin 2) * 128 ≤ (i 1).val ∧ (i 1).val < win0_2.index t (1 : Fin 2) * 128 + 128; rw [e5]; omega

/-- The output array after the region is the product of S and Z. -/
theorem final0 (c : Dev nD) : (dat0 (F := Ideal) V c).arrAt 2 cfg0.N = prodArr (V c main_arg1) (V c main_arg0) :=
  (dat0 (F := Ideal) V c).arrAt_eq_of_cover 2 (prodArr (V c main_arg1) (V c main_arg0))
    (fun t hf => flushed0_eq V c t ((flush0_2 t).mp hf)) cover0

/-- At (r, q) it holds the sum over the 8192 positions k of S(r, k) · Z(k, q). -/
theorem out0 (c : Dev nD) (r : Fin 8192) (q : Fin 128) :
    @Eq EReal ((dat0 (F := Ideal) V c).arrAt 2 cfg0.N (ix2 r q))
      (∑ k : Fin 8192, @HMul.hMul EReal EReal EReal instHMul (V c main_arg1 (ix2 r k)) (V c main_arg0 (ix2 k q))) :=
  (congrFun (final0 V c) (ix2 r q)).trans (prodArr_apply _ _ r q)

end Cert.KernelIdeal.Val

end
-- ==== Proof.Val.Out1.lean ====
import proofs.«134114_j48223892800206_1_alg».proof.Proof.KI.Body1
import proofs.«134114_j48223892800206_1_alg».proof.Proof.Val.Pay
import proofs.«134114_j48223892800206_1_alg».proof.Proof.Val.OutLib
import Idealize.ShloMosaic.Lib.Pipeline.Value
import Idealize.ShloMosaic.Lib.ValueIdx

/-!
# The output array of the blocked product number 1, read off its blocks

The grid has 4 row blocks by 8 column blocks; point t works on row block t / 8 and column block t % 8. After the
point the accumulator holds, at row p and column q of the block, the sum of S(row, k) · Z(k, q) over the positions k of
the column blocks 0 … t % 8, where row = (t / 8) · 2048 + p. At the last column block that is the whole sum over the
8192 positions, and it is what the point writes back to rows (t / 8) · 2048 … of the output; the four such blocks
cover the output array, which therefore ends holding the product S · Z.
-/

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices of the three windows at point t: S at (t / 8, t % 8), Z at (t % 8, 0), the output at (t / 8, 0). -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0)

/-- The S block at point t reads S at row (t / 8) · 2048 + p and column (t % 8) · 1024 + kk. -/
theorem blkS1 (c : Dev nD) (t : Fin cfg1.N) (p : Fin 2048) (kk : Fin 1024) (i : S8192x8192.Idx)
    (h0 : (i 0).val = t.val / 8 * 2048 + p.val) (h1 : (i 1).val = t.val % 8 * 1024 + kk.val) :
    (blk1 V c 0 t : Vec Ideal S2048x1024 .f32) (ix2 p kk) = (V c main_arg1 : S8192x8192.Idx → EReal) i := by
  obtain ⟨e0, e1, -⟩ := idx1 t
  unfold blk1
  rw [View.read_apply]
  show V c main_arg1 _ = V c main_arg1 _
  congr 1
  funext a
  apply Fin.ext
  match a with
  | ⟨0, _⟩ => show win1_0.index t (0 : Fin 2) * 2048 + 1 * p.val = (i 0).val; rw [e0, h0]; omega
  | ⟨1, _⟩ => show win1_0.index t (1 : Fin 2) * 1024 + 1 * kk.val = (i 1).val; rw [e1, h1]; omega

/-- The Z block at point t reads Z at row (t % 8) · 1024 + kk and column q. -/
theorem blkZ1 (c : Dev nD) (t : Fin cfg1.N) (kk : Fin 1024) (q : Fin 128) (j : S8192x128.Idx)
    (h0 : (j 0).val = t.val % 8 * 1024 + kk.val) (h1 : (j 1).val = q.val) :
    (blk1 V c 1 t : Vec Ideal S1024x128 .f32) (ix2 kk q) = (V c main_v4 : S8192x128.Idx → EReal) j := by
  obtain ⟨-, -, e2, e3, -⟩ := idx1 t
  unfold blk1
  rw [View.read_apply]
  show V c main_v4 _ = V c main_v4 _
  congr 1
  funext a
  apply Fin.ext
  match a with
  | ⟨0, _⟩ => show win1_1.index t (0 : Fin 2) * 1024 + 1 * kk.val = (j 0).val; rw [e2, h0]; omega
  | ⟨1, _⟩ => show win1_1.index t (1 : Fin 2) * 128 + 1 * q.val = (j 1).val; rw [e3, h1]; omega

/-- One point's step at (p, q): the accumulator's entry plus the summands of the point's run of 1024 positions. -/
theorem step1 (c : Dev nD) (n : ℕ) (hn : n < cfg1.N) (a : Vec Ideal S2048x128 .f32) (p : Fin 2048) (q : Fin 128) :
    k1_pay2 (blk1 V c 0 ⟨n, hn⟩) (blk1 V c 1 ⟨n, hn⟩) a (ix2 p q)
      = a (ix2 p q) + ∑ kk : Fin 1024, term (V c main_arg1) (V c main_v4) (n / 8 * 2048 + p.val) q.val (n % 8 * 1024 + kk.val) := by
  have hN : n < 32 := lt_of_lt_of_eq hn N_1
  refine (pay1_apply (blk1 V c 0 ⟨n, hn⟩) (blk1 V c 1 ⟨n, hn⟩) a p q).trans ?_
  congr 1
  refine Finset.sum_congr rfl fun kk _ => ?_
  have hkk : kk.val < 1024 := kk.isLt
  have hp : p.val < 2048 := p.isLt
  exact (congrArg₂ (fun x y : EReal => x * y)
      (blkS1 V c ⟨n, hn⟩ p kk (ix2 ⟨n / 8 * 2048 + p.val, by omega⟩ ⟨n % 8 * 1024 + kk.val, by omega⟩) rfl rfl)
      (blkZ1 V c ⟨n, hn⟩ kk q (ix2 ⟨n % 8 * 1024 + kk.val, by omega⟩ q) rfl rfl)).trans
    (term_eq (V c main_arg1) (V c main_v4) _ _ _ _ _ rfl rfl rfl rfl).symm

/-- At the first column block the accumulator starts from the zero block. -/
theorem acc1_apply_first (c : Dev nD) (n : ℕ) (hn : n < cfg1.N) (h : n % 8 = 0) (p : Fin 2048) (q : Fin 128) :
    acc1 V c n hn (ix2 p q)
      = ∑ k ∈ Finset.range ((n % 8 + 1) * 1024), term (V c main_arg1) (V c main_v4) (n / 8 * 2048 + p.val) q.val k := by
  refine (congrFun (acc1_first V c ⟨n, hn⟩ h) (ix2 p q)).trans ?_
  refine (step1 V c n hn (k1_pay1 (F := Ideal)) p q).trans ?_
  rw [sum_term_block, pay1_zero, h, Nat.zero_mul, Finset.range_zero, Finset.sum_empty]

/-- After the point at position n the accumulator holds, at (p, q), the sum over the positions of the column
    blocks 0 … n % 8 of the summands of row (n / 8) · 2048 + p: by induction on the position. -/
theorem acc1_apply (c : Dev nD) : ∀ (n : ℕ) (hn : n < cfg1.N) (p : Fin 2048) (q : Fin 128),
    acc1 V c n hn (ix2 p q)
      = ∑ k ∈ Finset.range ((n % 8 + 1) * 1024), term (V c main_arg1) (V c main_v4) (n / 8 * 2048 + p.val) q.val k := by
  intro n
  induction n with
  | zero => exact fun hn p q => acc1_apply_first V c 0 hn rfl p q
  | succ m ih =>
    intro hn p q
    by_cases h : (m + 1) % 8 = 0
    · exact acc1_apply_first V c (m + 1) hn h p q
    · refine (congrFun (acc1_next V c ⟨m + 1, hn⟩ h) (ix2 p q)).trans ?_
      refine (step1 V c (m + 1) hn (acc1 V c m (Nat.lt_of_succ_lt hn)) p q).trans ?_
      have e1 : m % 8 + 1 = (m + 1) % 8 := by omega
      have e2 : m / 8 = (m + 1) / 8 := by omega
      rw [sum_term_block, ih (Nat.lt_of_succ_lt hn) p q, e1, e2]

/-- What a point at the last column block writes back is its block of the product of S and Z. -/
theorem flushed1_eq (c : Dev nD) (t : Fin cfg1.N) (ht : t.val % 8 = 7) :
    (dat1 V c).flushed 2 t = ((cfg1.win 2).blk t).view.read (Elt Ideal) (prodArr (V c main_arg1) (V c main_v4)) := by
  show (cfg1.win 2).cut (grid1.coords t) ((dat1 V c).after 2 t) = _
  rw [after1_2]
  obtain ⟨-, -, -, -, e4, e5⟩ := idx1 t
  funext j
  obtain ⟨p, q, rfl⟩ : ∃ (p : Fin 2048) (q : Fin 128), j = ix2 p q := ⟨j 0, j 1, eq_ix2 j⟩
  rw [View.read_apply]
  show acc1 V c t.val t.isLt (ix2 p q) = prodArr (V c main_arg1) (V c main_v4) (((cfg1.win 2).blk t).view.emb (ix2 p q))
  rw [acc1_apply V c t.val t.isLt p q, ht]
  refine (prodArr_at _ _ _ _ _ ?_ ?_).symm
  · show win1_2.index t (0 : Fin 2) * 2048 + 1 * p.val = _; rw [e4]; omega
  · show win1_2.index t (1 : Fin 2) * 128 + 1 * q.val = _; rw [e5]; omega

/-- An index of the output array is in point t's block iff each coordinate is in the block's range on its axis. -/
theorem mem_blk1 (t : Fin cfg1.N) (i : S8192x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v10).slice (win1_2.rect t)).set ↔ _
  rw [View.set_slice_whole, Rect.mem_set_unit]
  exact Iff.rfl

/-- Row r of the output is in the block written back at the last column block of row block r / 2048. -/
theorem cover1 (i : S8192x128.Idx) : ∃ t : Fin cfg1.N, (cfg1.win 2).flush t = true ∧ i ∈ ((cfg1.win 2).blk t).view.set := by
  have hi0 : (i 0).val < 8192 := idx2_lt0 i
  have hi1 : (i 1).val < 128 := idx2_lt1 i
  obtain ⟨t, ht⟩ : ∃ t : Fin cfg1.N, t.val = (i 0).val / 2048 * 8 + 7 :=
    ⟨⟨(i 0).val / 2048 * 8 + 7, lt_of_lt_of_eq (by omega) N_1.symm⟩, rfl⟩
  obtain ⟨-, -, -, -, e4, e5⟩ := idx1 t
  refine ⟨t, (flush1_2 t).mpr (by omega), ?_⟩
  rw [mem_blk1]
  intro a
  match a with
  | ⟨0, _⟩ => show win1_2.index t (0 : Fin 2) * 2048 ≤ (i 0).val ∧ (i 0).val < win1_2.index t (0 : Fin 2) * 2048 + 2048; rw [e4]; omega
  | ⟨1, _⟩ => show win1_2.index t (1 : Fin 2) * 128 ≤ (i 1).val ∧ (i 1).val < win1_2.index t (1 : Fin 2) * 128 + 128; rw [e5]; omega

/-- The output array after the region is the product of S and Z. -/
theorem final1 (c : Dev nD) : (dat1 (F := Ideal) V c).arrAt 2 cfg1.N = prodArr (V c main_arg1) (V c main_v4) :=
  (dat1 (F := Ideal) V c).arrAt_eq_of_cover 2 (prodArr (V c main_arg1) (V c main_v4))
    (fun t hf => flushed1_eq V c t ((flush1_2 t).mp hf)) cover1

/-- At (r, q) it holds the sum over the 8192 positions k of S(r, k) · Z(k, q). -/
theorem out1 (c : Dev nD) (r : Fin 8192) (q : Fin 128) :
    @Eq EReal ((dat1 (F := Ideal) V c).arrAt 2 cfg1.N (ix2 r q))
      (∑ k : Fin 8192, @HMul.hMul EReal EReal EReal instHMul (V c main_arg1 (ix2 r k)) (V c main_v4 (ix2 k q))) :=
  (congrFun (final1 V c) (ix2 r q)).trans (prodArr_apply _ _ r q)

end Cert.KernelIdeal.Val

end
-- ==== Proof.Val.Out2.lean ====
import proofs.«134114_j48223892800206_1_alg».proof.Proof.KI.Body2
import proofs.«134114_j48223892800206_1_alg».proof.Proof.Val.Pay
import proofs.«134114_j48223892800206_1_alg».proof.Proof.Val.OutLib
import Idealize.ShloMosaic.Lib.Pipeline.Value
import Idealize.ShloMosaic.Lib.ValueIdx

/-!
# The output array of the blocked product number 2, read off its blocks

The grid has 4 row blocks by 8 column blocks; point t works on row block t / 8 and column block t % 8. After the
point the accumulator holds, at row p and column q of the block, the sum of S(row, k) · Z(k, q) over the positions k of
the column blocks 0 … t % 8, where row = (t / 8) · 2048 + p. At the last column block that is the whole sum over the
8192 positions, and it is what the point writes back to rows (t / 8) · 2048 … of the output; the four such blocks
cover the output array, which therefore ends holding the product S · Z.
-/

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices of the three windows at point t: S at (t / 8, t % 8), Z at (t % 8, 0), the output at (t / 8, 0). -/
theorem idx2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0)

/-- The S block at point t reads S at row (t / 8) · 2048 + p and column (t % 8) · 1024 + kk. -/
theorem blkS2 (c : Dev nD) (t : Fin cfg2.N) (p : Fin 2048) (kk : Fin 1024) (i : S8192x8192.Idx)
    (h0 : (i 0).val = t.val / 8 * 2048 + p.val) (h1 : (i 1).val = t.val % 8 * 1024 + kk.val) :
    (blk2 V c 0 t : Vec Ideal S2048x1024 .f32) (ix2 p kk) = (V c main_arg1 : S8192x8192.Idx → EReal) i := by
  obtain ⟨e0, e1, -⟩ := idx2 t
  unfold blk2
  rw [View.read_apply]
  show V c main_arg1 _ = V c main_arg1 _
  congr 1
  funext a
  apply Fin.ext
  match a with
  | ⟨0, _⟩ => show win2_0.index t (0 : Fin 2) * 2048 + 1 * p.val = (i 0).val; rw [e0, h0]; omega
  | ⟨1, _⟩ => show win2_0.index t (1 : Fin 2) * 1024 + 1 * kk.val = (i 1).val; rw [e1, h1]; omega

/-- The Z block at point t reads Z at row (t % 8) · 1024 + kk and column q. -/
theorem blkZ2 (c : Dev nD) (t : Fin cfg2.N) (kk : Fin 1024) (q : Fin 128) (j : S8192x128.Idx)
    (h0 : (j 0).val = t.val % 8 * 1024 + kk.val) (h1 : (j 1).val = q.val) :
    (blk2 V c 1 t : Vec Ideal S1024x128 .f32) (ix2 kk q) = (V c main_v10 : S8192x128.Idx → EReal) j := by
  obtain ⟨-, -, e2, e3, -⟩ := idx2 t
  unfold blk2
  rw [View.read_apply]
  show V c main_v10 _ = V c main_v10 _
  congr 1
  funext a
  apply Fin.ext
  match a with
  | ⟨0, _⟩ => show win2_1.index t (0 : Fin 2) * 1024 + 1 * kk.val = (j 0).val; rw [e2, h0]; omega
  | ⟨1, _⟩ => show win2_1.index t (1 : Fin 2) * 128 + 1 * q.val = (j 1).val; rw [e3, h1]; omega

/-- One point's step at (p, q): the accumulator's entry plus the summands of the point's run of 1024 positions. -/
theorem step2 (c : Dev nD) (n : ℕ) (hn : n < cfg2.N) (a : Vec Ideal S2048x128 .f32) (p : Fin 2048) (q : Fin 128) :
    k2_pay2 (blk2 V c 0 ⟨n, hn⟩) (blk2 V c 1 ⟨n, hn⟩) a (ix2 p q)
      = a (ix2 p q) + ∑ kk : Fin 1024, term (V c main_arg1) (V c main_v10) (n / 8 * 2048 + p.val) q.val (n % 8 * 1024 + kk.val) := by
  have hN : n < 32 := lt_of_lt_of_eq hn N_2
  refine (pay2_apply (blk2 V c 0 ⟨n, hn⟩) (blk2 V c 1 ⟨n, hn⟩) a p q).trans ?_
  congr 1
  refine Finset.sum_congr rfl fun kk _ => ?_
  have hkk : kk.val < 1024 := kk.isLt
  have hp : p.val < 2048 := p.isLt
  exact (congrArg₂ (fun x y : EReal => x * y)
      (blkS2 V c ⟨n, hn⟩ p kk (ix2 ⟨n / 8 * 2048 + p.val, by omega⟩ ⟨n % 8 * 1024 + kk.val, by omega⟩) rfl rfl)
      (blkZ2 V c ⟨n, hn⟩ kk q (ix2 ⟨n % 8 * 1024 + kk.val, by omega⟩ q) rfl rfl)).trans
    (term_eq (V c main_arg1) (V c main_v10) _ _ _ _ _ rfl rfl rfl rfl).symm

/-- At the first column block the accumulator starts from the zero block. -/
theorem acc2_apply_first (c : Dev nD) (n : ℕ) (hn : n < cfg2.N) (h : n % 8 = 0) (p : Fin 2048) (q : Fin 128) :
    acc2 V c n hn (ix2 p q)
      = ∑ k ∈ Finset.range ((n % 8 + 1) * 1024), term (V c main_arg1) (V c main_v10) (n / 8 * 2048 + p.val) q.val k := by
  refine (congrFun (acc2_first V c ⟨n, hn⟩ h) (ix2 p q)).trans ?_
  refine (step2 V c n hn (k2_pay1 (F := Ideal)) p q).trans ?_
  rw [sum_term_block, pay2_zero, h, Nat.zero_mul, Finset.range_zero, Finset.sum_empty]

/-- After the point at position n the accumulator holds, at (p, q), the sum over the positions of the column
    blocks 0 … n % 8 of the summands of row (n / 8) · 2048 + p: by induction on the position. -/
theorem acc2_apply (c : Dev nD) : ∀ (n : ℕ) (hn : n < cfg2.N) (p : Fin 2048) (q : Fin 128),
    acc2 V c n hn (ix2 p q)
      = ∑ k ∈ Finset.range ((n % 8 + 1) * 1024), term (V c main_arg1) (V c main_v10) (n / 8 * 2048 + p.val) q.val k := by
  intro n
  induction n with
  | zero => exact fun hn p q => acc2_apply_first V c 0 hn rfl p q
  | succ m ih =>
    intro hn p q
    by_cases h : (m + 1) % 8 = 0
    · exact acc2_apply_first V c (m + 1) hn h p q
    · refine (congrFun (acc2_next V c ⟨m + 1, hn⟩ h) (ix2 p q)).trans ?_
      refine (step2 V c (m + 1) hn (acc2 V c m (Nat.lt_of_succ_lt hn)) p q).trans ?_
      have e1 : m % 8 + 1 = (m + 1) % 8 := by omega
      have e2 : m / 8 = (m + 1) / 8 := by omega
      rw [sum_term_block, ih (Nat.lt_of_succ_lt hn) p q, e1, e2]

/-- What a point at the last column block writes back is its block of the product of S and Z. -/
theorem flushed2_eq (c : Dev nD) (t : Fin cfg2.N) (ht : t.val % 8 = 7) :
    (dat2 V c).flushed 2 t = ((cfg2.win 2).blk t).view.read (Elt Ideal) (prodArr (V c main_arg1) (V c main_v10)) := by
  show (cfg2.win 2).cut (grid2.coords t) ((dat2 V c).after 2 t) = _
  rw [after2_2]
  obtain ⟨-, -, -, -, e4, e5⟩ := idx2 t
  funext j
  obtain ⟨p, q, rfl⟩ : ∃ (p : Fin 2048) (q : Fin 128), j = ix2 p q := ⟨j 0, j 1, eq_ix2 j⟩
  rw [View.read_apply]
  show acc2 V c t.val t.isLt (ix2 p q) = prodArr (V c main_arg1) (V c main_v10) (((cfg2.win 2).blk t).view.emb (ix2 p q))
  rw [acc2_apply V c t.val t.isLt p q, ht]
  refine (prodArr_at _ _ _ _ _ ?_ ?_).symm
  · show win2_2.index t (0 : Fin 2) * 2048 + 1 * p.val = _; rw [e4]; omega
  · show win2_2.index t (1 : Fin 2) * 128 + 1 * q.val = _; rw [e5]; omega

/-- An index of the output array is in point t's block iff each coordinate is in the block's range on its axis. -/
theorem mem_blk2 (t : Fin cfg2.N) (i : S8192x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v16).slice (win2_2.rect t)).set ↔ _
  rw [View.set_slice_whole, Rect.mem_set_unit]
  exact Iff.rfl

/-- Row r of the output is in the block written back at the last column block of row block r / 2048. -/
theorem cover2 (i : S8192x128.Idx) : ∃ t : Fin cfg2.N, (cfg2.win 2).flush t = true ∧ i ∈ ((cfg2.win 2).blk t).view.set := by
  have hi0 : (i 0).val < 8192 := idx2_lt0 i
  have hi1 : (i 1).val < 128 := idx2_lt1 i
  obtain ⟨t, ht⟩ : ∃ t : Fin cfg2.N, t.val = (i 0).val / 2048 * 8 + 7 :=
    ⟨⟨(i 0).val / 2048 * 8 + 7, lt_of_lt_of_eq (by omega) N_2.symm⟩, rfl⟩
  obtain ⟨-, -, -, -, e4, e5⟩ := idx2 t
  refine ⟨t, (flush2_2 t).mpr (by omega), ?_⟩
  rw [mem_blk2]
  intro a
  match a with
  | ⟨0, _⟩ => show win2_2.index t (0 : Fin 2) * 2048 ≤ (i 0).val ∧ (i 0).val < win2_2.index t (0 : Fin 2) * 2048 + 2048; rw [e4]; omega
  | ⟨1, _⟩ => show win2_2.index t (1 : Fin 2) * 128 ≤ (i 1).val ∧ (i 1).val < win2_2.index t (1 : Fin 2) * 128 + 128; rw [e5]; omega

/-- The output array after the region is the product of S and Z. -/
theorem final2 (c : Dev nD) : (dat2 (F := Ideal) V c).arrAt 2 cfg2.N = prodArr (V c main_arg1) (V c main_v10) :=
  (dat2 (F := Ideal) V c).arrAt_eq_of_cover 2 (prodArr (V c main_arg1) (V c main_v10))
    (fun t hf => flushed2_eq V c t ((flush2_2 t).mp hf)) cover2

/-- At (r, q) it holds the sum over the 8192 positions k of S(r, k) · Z(k, q). -/
theorem out2 (c : Dev nD) (r : Fin 8192) (q : Fin 128) :
    @Eq EReal ((dat2 (F := Ideal) V c).arrAt 2 cfg2.N (ix2 r q))
      (∑ k : Fin 8192, @HMul.hMul EReal EReal EReal instHMul (V c main_arg1 (ix2 r k)) (V c main_v10 (ix2 k q))) :=
  (congrFun (final2 V c) (ix2 r q)).trans (prodArr_apply _ _ r q)

end Cert.KernelIdeal.Val

end
-- ==== Proof.Val.RefDot.lean ====
import proofs.«134114_j48223892800206_1_alg».proof.Proof.Gen.ReferenceIdeal.Read

/-!
# The reference's matrix product at an index

The reference multiplies the 8192 × 8192 matrix by an 8192 × 128 array with one `dot_general` contracting the matrix's
columns against the array's rows. On the extended reals its element at row r and column q is the plain sum
∑ over k < 8192 of x1(r, k) · x0(k, q), with indices written by coordinates.
-/

noncomputable section

namespace Cert.KernelIdeal.Val

open Idealize.ShloMosaic Idealize.ShloMosaic.ValueIdx

/-- The reference's product at (r, q) is the sum over the 8192 contraction positions of the products. -/
theorem ref_dot (x0 : (⟨Cert.ReferenceIdeal.S8192x128, .f32⟩ : BufTy).Contents (Elt Ideal))
    (x1 : (⟨Cert.ReferenceIdeal.S8192x8192, .f32⟩ : BufTy).Contents (Elt Ideal)) (r : Fin 8192) (q : Fin 128) :
    Host.dotGeneral (F := Ideal) (φ₁ := .f32) (φ₂ := .f32) Cert.ReferenceIdeal.dot_S8192x8192_S8192x128_S8192x128_1_0_0_1_n_n none x1 x0 (ix2 r q)
      = ∑ k : Fin 8192, x1 (ix2 r k) * x0 (ix2 k q) := by
  have h := Cert.ReferenceIdeal.Read.val_main_v4_apply x0 x1 (ix2 r q)
  unfold Cert.ReferenceIdeal.Read.val_main_v4 at h
  rw [h]
  refine Finset.sum_congr rfl fun k _ => ?_
  have el : Cert.ReferenceIdeal.Read.lidx_main_v4 (ix2 r q) k = ix2 r k :=
    funext fun a => Fin.ext (by match a with | ⟨0, _⟩ => rfl | ⟨1, _⟩ => rfl)
  have er : Cert.ReferenceIdeal.Read.ridx_main_v4 (ix2 r q) k = ix2 k q :=
    funext fun a => Fin.ext (by match a with | ⟨0, _⟩ => rfl | ⟨1, _⟩ => rfl)
  rw [el, er]

end Cert.KernelIdeal.Val
-- ==== Proof.Alg.lean ====
/-
  The value half of the certificate.  Both programs compute  y = c₀·X + c₁·(S X) + c₂·(S (S X)) + c₃·(S (S (S X))).
  The kernel program forms each product S Z block by block: for every block of 2048 rows it runs through the eight
  blocks of 1024 columns of S, adding (S block)·(Z block) to an accumulator that starts at zero, and writes the
  accumulator out after the eighth; over the extended reals, where a change of float format is the identity, the
  accumulator then holds at (r, q) the sum over all 8192 columns k of S(r,k)·Z(k,q) — the sum taken in eight
  consecutive pieces — which is the reference's product at (r, q).  Only associativity and commutativity of + are
  used, so no finiteness of the inputs is needed.  The scalings by c₀ … c₃ and the additions are the same host
  operations in both programs, applied to equal arrays.
-/
import proofs.«134114_j48223892800206_1_alg».proof.Defs
import proofs.«134114_j48223892800206_1_alg».proof.Proof.KI.Run
import proofs.«134114_j48223892800206_1_alg».proof.Proof.Val.Out0
import proofs.«134114_j48223892800206_1_alg».proof.Proof.Val.Out1
import proofs.«134114_j48223892800206_1_alg».proof.Proof.Val.Out2
import proofs.«134114_j48223892800206_1_alg».proof.Proof.Val.RefDot
import proofs.«134114_j48223892800206_1_alg».proof.Proof.Gen.ReferenceIdeal
import proofs.«134114_j48223892800206_1_alg».proof.Proof.Gen.ReferenceIdeal.Run
import proofs.«134114_j48223892800206_1_alg».proof.Proof.Gen.ReferenceIdeal.Read
import proofs.«134114_j48223892800206_1_alg».proof.Proof.Gen.Pre_finite_inputs

noncomputable section

namespace Cert.Proof.Parts

open Idealize.ShloMosaic Idealize.ShloMosaic.TcCoe Idealize.SL.Sem Idealize.ShloMosaic.ValueIdx
open Cert.KernelIdeal Cert.KernelIdeal.Hand Cert.KernelIdeal.Val

/-- The reference's product of an 8192 × 8192 matrix with an 8192 × 128 one. -/
abbrev refProd (A : (⟨Cert.ReferenceIdeal.S8192x8192, .f32⟩ : BufTy).Contents (Elt Ideal)) (B : (⟨Cert.ReferenceIdeal.S8192x128, .f32⟩ : BufTy).Contents (Elt Ideal)) :
    (⟨Cert.ReferenceIdeal.S8192x128, .f32⟩ : BufTy).Contents (Elt Ideal) :=
  Host.dotGeneral (F := Ideal) (φ₁ := .f32) (φ₂ := .f32) Cert.ReferenceIdeal.dot_S8192x8192_S8192x128_S8192x128_1_0_0_1_n_n none A B

/-- The array of sums over k of A(r,k)·B(k,q) is the reference's product: both are that sum at every index. -/
theorem prodArr_eq_refProd (A : (⟨Cert.ReferenceIdeal.S8192x8192, .f32⟩ : BufTy).Contents (Elt Ideal)) (B : (⟨Cert.ReferenceIdeal.S8192x128, .f32⟩ : BufTy).Contents (Elt Ideal)) :
    prodArr A B = refProd A B := by
  funext j
  obtain ⟨r, q, rfl⟩ : ∃ (r : Fin 8192) (q : Fin 128), j = ix2 r q := ⟨j 0, j 1, eq_ix2 j⟩
  rw [prodArr_apply]
  exact (ref_dot B A r q).symm

variable (m : (ℓ : Loc nD τ sig) → Buf (Elt Ideal) ℓ) (ρ : Dev nD → PrngReg)

/-- Region 0 leaves S·X in its output array. -/
theorem Z1_eq (c : Dev nD) : (dat0 (F := Ideal) (V1 m ρ) c).arrAt 2 cfg0.N
    = refProd (m ((c.tc : Thread nD τ).loc main_arg1)) (m ((c.tc : Thread nD τ).loc main_arg0)) := by
  rw [final0 (V1 m ρ) c, V1_arg1 m ρ c, V1_arg0 m ρ c]; exact prodArr_eq_refProd _ _

/-- Region 1, which reads region 0's output, leaves S·(S·X). -/
theorem Z2_eq (c : Dev nD) : (dat1 (F := Ideal) (V3 m ρ) c).arrAt 2 cfg1.N
    = refProd (m ((c.tc : Thread nD τ).loc main_arg1)) (refProd (m ((c.tc : Thread nD τ).loc main_arg1)) (m ((c.tc : Thread nD τ).loc main_arg0))) := by
  rw [final1 (V3 m ρ) c, V3_arg1 m ρ c, V3_v4 m ρ c, Z1_eq m ρ c]; exact prodArr_eq_refProd _ _

/-- Region 2, which reads region 1's output, leaves S·(S·(S·X)). -/
theorem Z3_eq (c : Dev nD) : (dat2 (F := Ideal) (V5 m ρ) c).arrAt 2 cfg2.N
    = refProd (m ((c.tc : Thread nD τ).loc main_arg1)) (refProd (m ((c.tc : Thread nD τ).loc main_arg1)) (refProd (m ((c.tc : Thread nD τ).loc main_arg1)) (m ((c.tc : Thread nD τ).loc main_arg0)))) := by
  rw [final2 (V5 m ρ) c, V5_arg1 m ρ c, V5_v10 m ρ c, Z2_eq m ρ c]; exact prodArr_eq_refProd _ _

/-- The common result: the reference's term of the kernel program's argument arrays. -/
def result (c : Dev nD) : Buf (Elt Ideal) ((c.tc : Thread nD τ).loc main_v21) :=
  Cert.ReferenceIdeal.Read.val_main_v21 (F := Ideal) (m ((c.tc : Thread nD τ).loc main_arg0))
    (m ((c.tc : Thread nD τ).loc main_arg1)) (m ((c.tc : Thread nD τ).loc main_arg2))

/-- The idealized kernel program runs to the end with its result array at the common result and its arguments
    unchanged. -/
theorem kernel_value :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (run_all (F := Ideal) m ρ)
  refine ⟨(h c _ (mem_uc main_v21 (by decide))).trans ?_,
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c)⟩
  rw [W7_v21 m ρ c, Z1_eq m ρ c, Z2_eq m ρ c, Z3_eq m ρ c]
  rfl

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel program at
    the common result by the above, the reference at its own term of equal arguments. -/
theorem algebraic : Cert.algebraic_KernelIdeal_ReferenceIdeal := by
  intro m ρ m' ρ' _ hagree
  refine ⟨result m, kernel_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  rfl

end Cert.Proof.Parts

end
-- ==== Proof.lean ====
/-
  The certificate's claim: both kernel programs (as printed, and idealized) and the idealized reference run to
  the end leaving their argument arrays unchanged; the idealization rewrote nothing; and the idealized kernel
  program and the idealized reference end with equal result arrays over the extended reals.
  The program is  y = c₀·X + c₁·(S X) + c₂·(S² X) + c₃·(S³ X)  with each product S·Z formed by a grid of 4 × 8
  points: at point (i, k) the body adds the product of block (i, k) of S with block k of Z to an accumulator kept
  between points, zeroed at k = 0 and written to block i of the output at k = 7.
  Proof/KI/Body0–2 (and Proof/K/Body0–2 for the program as printed) run one point of each product and state what
  the accumulator holds after every point; Proof/KI/Run (Proof/K/Run) composes the seven segments of the program —
  host operations and the three products alternating — and reads the final contents of every buffer;
  Proof/Val reads each product's output array as the sum over all columns; Proof/Alg joins this to the
  reference's products and closes the value claim.
-/
import proofs.«134114_j48223892800206_1_alg».proof.Defs
import proofs.«134114_j48223892800206_1_alg».proof.Proof.Gen.Kernel
import proofs.«134114_j48223892800206_1_alg».proof.Proof.Gen.KernelIdeal
import proofs.«134114_j48223892800206_1_alg».proof.Proof.Gen.ReferenceIdeal
import proofs.«134114_j48223892800206_1_alg».proof.Proof.Gen.ReferenceIdeal.Run
import proofs.«134114_j48223892800206_1_alg».proof.Proof.Gen.ReferenceIdeal.Read
import proofs.«134114_j48223892800206_1_alg».proof.Proof.Gen.Pre_finite_inputs
import proofs.«134114_j48223892800206_1_alg».proof.Proof.K.Run
import proofs.«134114_j48223892800206_1_alg».proof.Proof.KI.Run
import proofs.«134114_j48223892800206_1_alg».proof.Proof.Alg
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Parts.frame_ri,
    trivial,
    Parts.algebraic⟩

end Cert.Proof

end
